-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x128 : Shape := ⟨3, ![2, 512, 128]⟩
abbrev S2x512x512 : Shape := ⟨3, ![2, 512, 512]⟩
abbrev S128x128 : Shape := ⟨2, ![128, 128]⟩
abbrev S_ : Shape := ⟨0, ![]⟩

class Facts : Prop where
  bcast_S_S2x512x128 : S_.BroadcastsInDim S2x512x128 (![] : Fin 0 → Fin S2x512x128.rank)
  reducesTo_S2x512x128_S_d0_1_2 : S2x512x128.ReducesTo [0, 1, 2] S_
  h_S_ : 0 < S_.numel
  bcast_S_S2x512x512 : S_.BroadcastsInDim S2x512x512 (![] : Fin 0 → Fin S2x512x512.rank)
  reducesTo_S2x512x512_S_d0_1_2 : S2x512x512.ReducesTo [0, 1, 2] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S2x512x128 .f32) (main_arg1 : FVec F S2x512x512 .f32) (main_arg2 : FVec F S128x128 .f32) : IVec S_ 1 :=
  let main_v0 : FVec F S2x512x128 .f32 := Host.absf main_arg0
  let main_cst : FVec F S_ .f32 := constant S_ .f32 0x7F800000#32
  let main_v1 : FVec F S2x512x128 .f32 := broadcastInDim S2x512x128 ![] bcast_S_S2x512x128 main_cst
  let main_v2 : IVec S2x512x128 1 := cmpf .olt main_v0 main_v1
  let main_c : IVec S_ 1 := constantI S_ 1 1#1
  let main_v3 : IVec S_ 1 := (fun x v => Host.reduce IntOp.andi x v reducesTo_S2x512x128_S_d0_1_2 h_S_) main_v2 main_c
  let main_v4 : FVec F S2x512x512 .f32 := Host.absf main_arg1
  let main_cst_0 : FVec F S_ .f32 := constant S_ .f32 0x7F800000#32
  let main_v5 : FVec F S2x512x512 .f32 := broadcastInDim S2x512x512 ![] bcast_S_S2x512x512 main_cst_0
  let main_v6 : IVec S2x512x512 1 := cmpf .olt main_v4 main_v5
  let main_c_1 : IVec S_ 1 := constantI S_ 1 1#1
  let main_v7 : IVec S_ 1 := (fun x v => Host.reduce IntOp.andi x v reducesTo_S2x512x512_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S2x512x128 : Shape := ⟨3, ![2, 512, 128]⟩
abbrev S2x512x512 : Shape := ⟨3, ![2, 512, 512]⟩
abbrev S128x128 : Shape := ⟨2, ![128, 128]⟩
abbrev S2x128 : Shape := ⟨2, ![2, 128]⟩
abbrev S1x512x128 : Shape := ⟨3, ![1, 512, 128]⟩
abbrev S1x512x512 : Shape := ⟨3, ![1, 512, 512]⟩
abbrev S512x512 : Shape := ⟨2, ![512, 512]⟩
abbrev S512x128 : Shape := ⟨2, ![512, 128]⟩
abbrev S128 : Shape := ⟨1, ![128]⟩
abbrev S1x128 : Shape := ⟨2, ![1, 128]⟩

abbrev nBuf : Space → Nat
  | .hbm => 4
  | .vmem => 6
  | .smem => 0
  | _ => 0

abbrev bufTy : (tb : Table) → Fin (tcTables nBuf tb) → BufTy
  | .hbm, ⟨0, _⟩ => ⟨S2x512x128, .f32⟩
  | .hbm, ⟨1, _⟩ => ⟨S2x512x512, .f32⟩
  | .hbm, ⟨2, _⟩ => ⟨S128x128, .f32⟩
  | .hbm, ⟨3, _⟩ => ⟨S2x128, .f32⟩
  | .local _ .vmem, ⟨0, _⟩ => ⟨S1x512x128, .f32⟩
  | .local _ .vmem, ⟨1, _⟩ => ⟨S1x512x128, .f32⟩
  | .local _ .vmem, ⟨2, _⟩ => ⟨S1x512x512, .f32⟩
  | .local _ .vmem, ⟨3, _⟩ => ⟨S1x512x512, .f32⟩
  | .local _ .vmem, ⟨4, _⟩ => ⟨S128x128, .f32⟩
  | .local _ .vmem, ⟨5, _⟩ => ⟨S2x128, .f32⟩
  | _, _ => ⟨S2x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![2], ![false]⟩

def k0_off1 (i : grid0.Coords) : Fin 2 → Nat :=
  let arg0 : BitVec 32 := BitVec.ofNat 32 (i 0).val
  let v14 : Index := Scalar.indexCast arg0
  let c0_11 : Index := 0#32
  ![v14.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S128x128_S128x128_0_0 : ∀ a, (![0, 0] : Fin 2 → Nat) a + S128x128.size a ≤ S128x128.size a
  h_S128x128 : 0 < S128x128.numel
  reduces_S512x128_S128 : S512x128.Reduces [0] S128
  h_S1x128 : 0 < S1x128.numel
  shapeCasts_S1x128_S128 : S1x128.ShapeCasts S128
  shapeCasts_S128_S1x128 : S128.ShapeCasts S1x128
  dot_S512x512_S512x128_S512x128_0_0_1_1_n_n_wf : DotDims.WF S512x512 S512x128 S512x128 [0] [0] [1] [1] [] []
  dot_S512x128_S128x128_S512x128_1_0_0_1_n_n_wf : DotDims.WF S512x128 S128x128 S512x128 [1] [0] [0] [1] [] []
  hrank0 : 0 < grid0.rank
  k0_off1_inb : ∀ i : grid0.Coords, ∀ a, (k0_off1 i) a + S1x128.size a ≤ S2x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S2x512x128.size a
  hwx0_0 : ∀ i : grid0.Coords, EltTy.bits .f32 = 32 ∨ (Rect.block (s := S2x512x128) S1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S2x512x512.size a
  hwx0_1 : ∀ i : grid0.Coords, EltTy.bits .f32 = 32 ∨ (Rect.block (s := S2x512x512) S1x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x128.size a ≤ S2x128.size a
  hwx0_3 : ∀ i : grid0.Coords, EltTy.bits .f32 = 32 ∨ (Rect.block (s := S2x128) S2x128.size (cc0_transform_3 i) (hinb0_3 i)).WholeWords (EltTy.packing .f32)

variable [Facts₀]

def dot_S512x512_S512x128_S512x128_0_0_1_1_n_n : DotDims S512x512 S512x128 S512x128 where
  lhsContracting := [0]
  rhsContracting := [0]
  lhsNonContracting := [1]
  rhsNonContracting := [1]
  lhsBatch := []
  rhsBatch := []
  wf := dot_S512x512_S512x128_S512x128_0_0_1_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_arg0) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x512x128 : Shape := ⟨3, ![2, 512, 128]⟩
abbrev S2x512x512 : Shape := ⟨3, ![2, 512, 512]⟩
abbrev S128x128 : Shape := ⟨2, ![128, 128]⟩
abbrev S2 : Shape := ⟨1, ![2]⟩
abbrev S_ : Shape := ⟨0, ![]⟩
abbrev S2x1x1 : Shape := ⟨3, ![2, 1, 1]⟩
abbrev S512 : Shape := ⟨1, ![512]⟩
abbrev S1x512x1 : Shape := ⟨3, ![1, 512, 1]⟩
abbrev S2x512x1 : Shape := ⟨3, ![2, 512, 1]⟩
abbrev S524288 : Shape := ⟨1, ![524288]⟩
abbrev S1x1x512 : Shape := ⟨3, ![1, 1, 512]⟩
abbrev S2x1x512 : Shape := ⟨3, ![2, 1, 512]⟩
abbrev S1x524288 : Shape := ⟨2, ![1, 524288]⟩
abbrev S2x524288 : Shape := ⟨2, ![2, 524288]⟩
abbrev S1024x128 : Shape := ⟨2, ![1024, 128]⟩
abbrev S524288x1 : Shape := ⟨2, ![524288, 1]⟩
abbrev S524288x128 : Shape := ⟨2, ![524288, 128]⟩
abbrev S2x512 : Shape := ⟨2, ![2, 512]⟩
abbrev S1024 : Shape := ⟨1, ![1024]⟩
abbrev S2x128 : Shape := ⟨2, ![2, 128]⟩
abbrev S1024x1 : Shape := ⟨2, ![1024, 1]⟩

abbrev nBuf : Space → Nat
  | .hbm => 61
  | .vmem => 0
  | .smem => 0
  | _ => 0

abbrev bufTy : (tb : Table) → Fin (tcTables nBuf tb) → BufTy
  | .hbm, ⟨0, _⟩ => ⟨S2x512x128, .f32⟩
  | .hbm, ⟨1, _⟩ => ⟨S2x512x512, .f32⟩
  | .hbm, ⟨2, _⟩ => ⟨S128x128, .f32⟩
  | .hbm, ⟨3, _⟩ => ⟨S2, .i32⟩
  | .hbm, ⟨4, _⟩ => ⟨S_, .i32⟩
  | .hbm, ⟨5, _⟩ => ⟨S2, .i32⟩
  | .hbm, ⟨6, _⟩ => ⟨S2, .i32⟩
  | .hbm, ⟨7, _⟩ => ⟨S2x1x1, .i32⟩
  | .hbm, ⟨8, _⟩ => ⟨S512, .i32⟩
  | .hbm, ⟨9, _⟩ => ⟨S1x512x1, .i32⟩
  | .hbm, ⟨10, _⟩ => ⟨S2x512x1, .i32⟩
  | .hbm, ⟨11, _⟩ => ⟨S2x512x1, .i32⟩
  | .hbm, ⟨12, _⟩ => ⟨S2x512x1, .i32⟩
  | .hbm, ⟨13, _⟩ => ⟨S2x512x512, .i32⟩
  | .hbm, ⟨14, _⟩ => ⟨S524288, .i32⟩
  | .hbm, ⟨15, _⟩ => ⟨S512, .i32⟩
  | .hbm, ⟨16, _⟩ => ⟨S1x1x512, .i32⟩
  | .hbm, ⟨17, _⟩ => ⟨S2x1x512, .i32⟩
  | .hbm, ⟨18, _⟩ => ⟨S2x1x512, .i32⟩
  | .hbm, ⟨19, _⟩ => ⟨S2x1x512, .i32⟩
  | .hbm, ⟨20, _⟩ => ⟨S2x512x512, .i32⟩
  | .hbm, ⟨21, _⟩ => ⟨S524288, .i32⟩
  | .hbm, ⟨22, _⟩ => ⟨S524288, .f32⟩
  | .hbm, ⟨23, _⟩ => ⟨S1x524288, .i32⟩
  | .hbm, ⟨24, _⟩ => ⟨S1x524288, .i32⟩
  | .hbm, ⟨25, _⟩ => ⟨S2x524288, .i32⟩
  | .hbm, ⟨26, _⟩ => ⟨S1024x128, .f32⟩
  | .hbm, ⟨27, _⟩ => ⟨S1x524288, .i32⟩
  | .hbm, ⟨28, _⟩ => ⟨S524288, .i32⟩
  | .hbm, ⟨29, _⟩ => ⟨S_, .i32⟩
  | .hbm, ⟨30, _⟩ => ⟨S524288, .i32⟩
  | .hbm, ⟨31, _⟩ => ⟨S524288, .i1⟩
  | .hbm, ⟨32, _⟩ => ⟨S_, .i32⟩
  | .hbm, ⟨33, _⟩ => ⟨S524288, .i32⟩
  | .hbm, ⟨34, _⟩ => ⟨S524288, .i32⟩
  | .hbm, ⟨35, _⟩ => ⟨S524288, .i32⟩
  | .hbm, ⟨36, _⟩ => ⟨S524288x1, .i32⟩
  | .hbm, ⟨37, _⟩ => ⟨S524288x128, .f32⟩
  | .hbm, ⟨38, _⟩ => ⟨S524288x1, .f32⟩
  | .hbm, ⟨39, _⟩ => ⟨S524288x128, .f32⟩
  | .hbm, ⟨40, _⟩ => ⟨S524288x128, .f32⟩
  | .hbm, ⟨41, _⟩ => ⟨S1x524288, .i32⟩
  | .hbm, ⟨42, _⟩ => ⟨S524288, .i32⟩
  | .hbm, ⟨43, _⟩ => ⟨S_, .f32⟩
  | .hbm, ⟨44, _⟩ => ⟨S1024x128, .f32⟩
  | .hbm, ⟨45, _⟩ => ⟨S524288x1, .i32⟩
  | .hbm, ⟨46, _⟩ => ⟨S1024x128, .f32⟩
  | .hbm, ⟨47, _⟩ => ⟨S1024x128, .f32⟩
  | .hbm, ⟨48, _⟩ => ⟨S_, .f32⟩
  | .hbm, ⟨49, _⟩ => ⟨S1024x128, .f32⟩
  | .hbm, ⟨50, _⟩ => ⟨S1024x128, .f32⟩
  | .hbm, ⟨51, _⟩ => ⟨S2, .i32⟩
  | .hbm, ⟨52, _⟩ => ⟨S2x512, .i32⟩
  | .hbm, ⟨53, _⟩ => ⟨S1024, .i32⟩
  | .hbm, ⟨54, _⟩ => ⟨S_, .f32⟩
  | .hbm, ⟨55, _⟩ => ⟨S2x128, .f32⟩
  | .hbm, ⟨56, _⟩ => ⟨S1024x1, .i32⟩
  | .hbm, ⟨57, _⟩ => ⟨S2x128, .f32⟩
  | .hbm, ⟨58, _⟩ => ⟨S_, .f32⟩
  | .hbm, ⟨59, _⟩ => ⟨S2x128, .f32⟩
  | .hbm, ⟨60, _⟩ => ⟨S2x128, .f32⟩
  | _, _ => ⟨S2x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_c_0 : Ref sig .tc := ⟨.hbm, 29, rfl⟩
abbrev main_v25 : Ref sig .tc := ⟨.hbm, 30, rfl⟩
abbrev main_v26 : Ref sig .tc := ⟨.hbm, 31, rfl⟩
abbrev main_c_1 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_call0_cst : Ref sig .tc := ⟨.hbm, 48, rfl⟩
abbrev main_call0_v0 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_2 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_3 : Ref sig .tc := ⟨.hbm, 58, rfl⟩
abbrev main_v48 : Ref sig .tc := ⟨.hbm, 59, rfl⟩
abbrev main_v49 : Ref sig .tc := ⟨.hbm, 60, rfl⟩

abbrev nD : Nat := 1
abbrev τ : Topo := Topo.v7x

variable {F : FTy → Type} [FloatOps F]

class Facts₀ : Prop where
  bcast_S_S2 : S_.BroadcastsInDim S2 (![] : Fin 0 → Fin S2.rank)
  bcast_S2_S2x1x1_0 : S2.BroadcastsInDim S2x1x1 (![0] : Fin 1 → Fin S2x1x1.rank)
  bcast_S512_S1x512x1_1 : S512.BroadcastsInDim S1x512x1 (![1] : Fin 1 → Fin S1x512x1.rank)
  bcast_S2x1x1_S2x512x1_0_1_2 : S2x1x1.BroadcastsInDim S2x512x1 (![0, 1, 2] : Fin 3 → Fin S2x512x1.rank)
  bcast_S1x512x1_S2x512x1_0_1_2 : S1x512x1.BroadcastsInDim S2x512x1 (![0, 1, 2] : Fin 3 → Fin S2x512x1.rank)
  bcast_S2x512x1_S2x512x512_0_1_2 : S2x512x1.BroadcastsInDim S2x512x512 (![0, 1, 2] : Fin 3 → Fin S2x512x512.rank)
  shapeCasts_S2x512x512_S524288 : S2x512x512.ShapeCasts S524288
  bcast_S512_S1x1x512_2 : S512.BroadcastsInDim S1x1x512 (![2] : Fin 1 → Fin S1x1x512.rank)
  bcast_S2x1x1_S2x1x512_0_1_2 : S2x1x1.BroadcastsInDim S2x1x512 (![0, 1, 2] : Fin 3 → Fin S2x1x512.rank)
  bcast_S1x1x512_S2x1x512_0_1_2 : S1x1x512.BroadcastsInDim S2x1x512 (![0, 1, 2] : Fin 3 → Fin S2x1x512.rank)
  bcast_S2x1x512_S2x512x512_0_1_2 : S2x1x512.BroadcastsInDim S2x512x512 (![0, 1, 2] : Fin 3 → Fin S2x512x512.rank)
  bcast_S524288_S1x524288_1 : S524288.BroadcastsInDim S1x524288 (![1] : Fin 1 → Fin S1x524288.rank)
  concatenates_S1x524288_S1x524288_S2x524288_d0 : Shape.Concatenates [S1x524288, S1x524288] S2x524288 0
  shapeCasts_S2x512x128_S1024x128 : S2x512x128.ShapeCasts S1024x128
  slices_S2x524288_S1x524288_0_0 : S2x524288.Slices ![0, 0] S1x524288
  shapeCasts_S1x524288_S524288 : S1x524288.ShapeCasts S524288
  bcast_S_S524288 : S_.BroadcastsInDim S524288 (![] : Fin 0 → Fin S524288.rank)
  bcast_S524288_S524288x1_0 : S524288.BroadcastsInDim S524288x1 (![0] : Fin 1 → Fin S524288x1.rank)
  bcast_S524288x1_S524288x128_0_1 : S524288x1.BroadcastsInDim S524288x128 (![0, 1] : Fin 2 → Fin S524288x128.rank)
  slices_S2x524288_S1x524288_1_0 : S2x524288.Slices ![1, 0] S1x524288
  bcast_S_S1024x128 : S_.BroadcastsInDim S1024x128 (![] : Fin 0 → Fin S1024x128.rank)
  bcast_S2_S2x512_0 : S2.BroadcastsInDim S2x512 (![0] : Fin 1 → Fin S2x512.rank)
  shapeCasts_S2x512_S1024 : S2x512.ShapeCasts S1024
  bcast_S_S2x128 : S_.BroadcastsInDim S2x128 (![] : Fin 0 → Fin S2x128.rank)
  bcast_S1024_S1024x1_0 : S1024.BroadcastsInDim S1024x1 (![0] : Fin 1 → Fin S1024x1.rank)
  gather_S1024x128_S524288x1_S524288x128_1_0_n_n_0_1_1128_wf : GatherDims.WF S1024x128 S524288x1 S524288x128 [1] [0] [] [0] [] 1 ![1, 128]
  scatter_S1024x128_S524288x1_S524288x128_1_0_0_1_wf : ScatterDims.WF S1024x128 S524288x1 S524288x128 [1] [0] [0] 1
  dot_S1024x128_S128x128_S1024x128_1_0_0_1_n_n_wf : DotDims.WF S1024x128 S128x128 S1024x128 [1] [0] [0] [1] [] []
  scatter_S2x128_S1024x1_S1024x128_1_0_0_1_wf : ScatterDims.WF S2x128 S1024x1 S1024x128 [1] [0] [0] 1

variable [Facts₀]

def gather_S1024x128_S524288x1_S524288x128_1_0_n_n_0_1_1128 : GatherDims S1024x128 S524288x1 S524288x128 where
  offsetDims := [1]
  collapsedSliceDims := [0]
  operandBatchingDims := []
  startIndicesBatchingDims := []
  startIndexMap := [0]
  indexVectorDim := 1
  sliceSizes := ![1, 128]
  wf := gather_S1024x128_S524288x1_S524288x128_1_0_n_n_0_1_1128_wf
def scatter_S1024x128_S524288x1_S524288x128_1_0_0_1 : ScatterDims S1024x128 S524288x1 S524288x128 where
  updateWindowDims := [1]
  insertedWindowDims := [0]
  scatterDimsToOperandDims := [0]
  indexVectorDim := 1
  wf := scatter_S1024x128_S524288x1_S524288x128_1_0_0_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def scatter_S2x128_S1024x1_S1024x128_1_0_0_1 : ScatterDims S2x128 S1024x1 S1024x128 where
  updateWindowDims := [1]
  insertedWindowDims := [0]
  scatterDimsToOperandDims := [0]
  indexVectorDim := 1
  wf := scatter_S2x128_S1024x1_S1024x128_1_0_0_1_wf

class Facts : Prop extends Facts₀ where

variable [Facts]
-- ==== Proof.KernelBody.lean ====
/-
  The kernel body at a grid point, the proof data of its one pipeline, and the run (the program as printed, read at the word level).

  The body loads its three input buffers whole (the batch element's features, its adjacency, the weight matrix),
  computes one row of 128 lanes from them, and stores it into row `i` of the two-row output buffer, `i` the grid
  coordinate; the other row it leaves alone. So what the output buffer holds after a point is a function of what it
  held before, and before the first point that is whatever the buffer held at the launch: the output window is
  therefore constrained by a relation (found contents ↦ left contents) rather than named, while the three inputs are
  named by their blocks. The output's block is the whole array and is written back once, after the last point, by
  when both rows have been stored: the array written back is the two payloads stacked, whatever the buffer held at
  the launch. Everything here is stated for any float instance.
-/
import proofs.«135903_g37177236914935_cont_8to1_b_467_17_alg».proof.Proof.Gen.Kernel.Frame
import proofs.«135903_g37177236914935_cont_8to1_b_467_17_alg».proof.Proof.Gen.Kernel.Skeleton
import Idealize.ShloMosaic.Lib.WritesUnit
import Idealize.ShloMosaic.Lib.Pipeline.Value
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What one grid point does to the output buffer

The output buffer has two rows of 128 lanes. At grid coordinate `i` the body overwrites row `i` with its payload
(a function of the three input blocks) and leaves the other row as it found it. -/

/-- The output buffer's contents after the store at coordinate `i` of the row `p`, given the contents `Y` before:
    `p` under the stored row, `Y` elsewhere. -/
def rowStored (i : grid0.Coords) (p : FVec F S1x128 .f32) (Y : Vec F S2x128 .f32) : Vec F S2x128 .f32 :=
  fun y => if h : ∀ a, k0_off1 i a ≤ (y a).val ∧ (y a).val < k0_off1 i a + S1x128.size a then
      p (Rect.unitLocal (s := S2x128) (off := k0_off1 i) (size := S1x128.size) y h)
    else Y y

theorem zeros3 : (![0, 0, 0] : Fin 3 → Nat) = fun _ => 0 := by
  funext a; match a with | ⟨0, _⟩ => rfl | ⟨1, _⟩ => rfl | ⟨2, _⟩ => rfl
theorem zeros2 : (![0, 0] : Fin 2 → Nat) = fun _ => 0 := by
  funext a; match a with | ⟨0, _⟩ => rfl | ⟨1, _⟩ => rfl

set_option maxHeartbeats 1000000 in
/-- The body's triple on whole staging memrefs: from the three input buffers at `x0`, `x1`, `x2` and the output
    buffer at `d`, the body runs to the inputs unchanged and the output at `d` with row `i` replaced by the payload
    of the inputs. -/
theorem kernelRun (c : Dev nD) (i : grid0.Coords) (arg1 : Memref sig .tc .vmem S1x512x128 .f32) (harg1 : arg1.IsWhole) (arg2 : Memref sig .tc .vmem S1x512x512 .f32) (harg2 : arg2.IsWhole) (arg3 : Memref sig .tc .vmem S128x128 .f32) (harg3 : arg3.IsWhole) (arg4 : Memref sig .tc .vmem S2x128 .f32) (harg4 : arg4.IsWhole)
    (x0 : Vec F S1x512x128 .f32) (x1 : Vec F S1x512x512 .f32) (x2 : Vec F S128x128 .f32) (d : Vec F S2x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare d
            ∗ (iprop(owns (c : Thread nD τ) arg1 fullShare x0 ∗ owns (c : Thread nD τ) arg2 fullShare x1 ∗ owns (c : Thread nD τ) arg3 fullShare x2
                ∗ owns (c : Thread nD τ) arg4 fullShare (rowStored i (k0_pay1 x1 x0 x2) d)) -∗ K ⟨⟩))
          ⊢ wp frame (wpE (defs₀ (F := F)) Variants.none c none) E (cc0__body i arg1 harg1 arg2 harg2 arg3 harg3 arg4 harg4) K := by
    intro E K
    simp only [cc0__body_eq_skeleton]; unfold cc0__body_skel
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; isplitr; swap; · iexact H3
    ipureintro
    funext y
    rw [View.read_writes_cons_unit arg4.view f3 _ _ [] y rfl]
    simp only [View.readAt_eq_ld, harg1.read_unread, harg2.read_unread, harg3.read_unread, View.writes_nil,
      View.ld_unit_zero (S := S1x512x512) zeros3, View.ld_unit_zero (S := S1x512x128) zeros3,
      View.ld_unit_zero (S := S128x128) zeros2, hf3]
    rfl

/-! ## The proof data

The three inputs are named: after the body each input buffer holds its block. The output buffer is constrained, not
named: what the body leaves there is what it found with the row of its grid coordinate replaced by the payload of the
point's input blocks — the other row is whatever the buffer held, which at the first point nothing states. -/

/-- The exact part: the arrays as the region finds them, each input's buffer at its block. The output window's entry
    is read by nothing (its relation is overridden below). -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

/-- The payload of point `t`: the body's arithmetic of the point's three input blocks. -/
def payAt (c : Dev nD) (t : Fin cfg0.N) : FVec F S1x128 .f32 :=
  k0_pay1 (iblk m c 1 t) (iblk m c 0 t) (iblk m c 2 t)

/-- The output window's relation at point `t`: the row of the point's coordinate takes the point's payload, the rest
    stays. -/
def outRel (c : Dev nD) (t : Fin cfg0.N) (Y X : Vec F S2x128 .f32) : Prop :=
  X = rowStored (grid0.coords t) (payAt m c t) Y

/-- Which windows are constrained by a relation of their own: the output window only. -/
def ovr (c : Dev nD) : (w : Fin cfg0.W) → Option (Fin cfg0.N → (Y X : (cfg0.win w).block.Idx → Elt F (cfg0.win w).elt) → Prop) :=
  fun w => match w with
    | ⟨0, _⟩ => none
    | ⟨1, _⟩ => none
    | ⟨2, _⟩ => none
    | ⟨3, _⟩ => some (outRel m c)
    | ⟨_ + 4, h⟩ => absurd h (Nat.not_lt.2 (Nat.le_add_left _ _))

/-- The relational proof data of the one pipeline on core `c`. -/
def rdat (c : Dev nD) : RDat τ (Elt F) Unit ℕ (UR sig nD τ) ℕ cfg0 c := (dat m c).toR.override (ovr m c)

theorem A_eq (c : Dev nD) (w : Fin cfg0.W) : (rdat m c).A w = V m c (Pipeline.arrRef spec0 w) := rfl

theorem after_dat0 (c : Dev nD) (t : Fin cfg0.N) : (dat m c).after 0 t = iblk m c 0 t := by dsimp only [dat]
theorem after_dat1 (c : Dev nD) (t : Fin cfg0.N) : (dat m c).after 1 t = iblk m c 1 t := by dsimp only [dat]
theorem after_dat2 (c : Dev nD) (t : Fin cfg0.N) : (dat m c).after 2 t = iblk m c 2 t := by dsimp only [dat]

/-- What the body finds in an input buffer is the input's block, fetched at this point or kept from an earlier one. -/
theorem finds0 (c : Dev nD) (t : Fin cfg0.N) (Y) (h : (rdat m c).Finds 0 t Y) : Y = iblk m c 0 t := by
  obtain ⟨d, hd⟩ := (dat m c).toR_finds 0 t Y (((dat m c).toR.override_finds (ovr := ovr m c) (w := 0) rfl t Y).mp h)
  rw [hd]; exact before0_0_of m (dat m c) rfl (after_dat0 m c) t d
theorem finds1 (c : Dev nD) (t : Fin cfg0.N) (Y) (h : (rdat m c).Finds 1 t Y) : Y = iblk m c 1 t := by
  obtain ⟨d, hd⟩ := (dat m c).toR_finds 1 t Y (((dat m c).toR.override_finds (ovr := ovr m c) (w := 1) rfl t Y).mp h)
  rw [hd]; exact before0_1_of m (dat m c) rfl (after_dat1 m c) t d
theorem finds2 (c : Dev nD) (t : Fin cfg0.N) (Y) (h : (rdat m c).Finds 2 t Y) : Y = iblk m c 2 t := by
  obtain ⟨d, hd⟩ := (dat m c).toR_finds 2 t Y (((dat m c).toR.override_finds (ovr := ovr m c) (w := 2) rfl t Y).mp h)
  rw [hd]; exact before0_2_of m (dat m c) rfl (after_dat2 m c) t d

/-- An input buffer left at its block satisfies the input's relation. -/
theorem leaves0 (c : Dev nD) (t : Fin cfg0.N) (Y) : (rdat m c).after 0 t Y (iblk m c 0 t) := by
  unfold rdat; rw [(dat m c).toR.override_after_of_eq_none (ovr := ovr m c) (w := 0) rfl]
  exact (Dat.Leaves.live_iff (dat m c) (Or.inl rfl)).mpr (after_dat0 m c t).symm
theorem leaves1 (c : Dev nD) (t : Fin cfg0.N) (Y) : (rdat m c).after 1 t Y (iblk m c 1 t) := by
  unfold rdat; rw [(dat m c).toR.override_after_of_eq_none (ovr := ovr m c) (w := 1) rfl]
  exact (Dat.Leaves.live_iff (dat m c) (Or.inl rfl)).mpr (after_dat1 m c t).symm
theorem leaves2 (c : Dev nD) (t : Fin cfg0.N) (Y) : (rdat m c).after 2 t Y (iblk m c 2 t) := by
  unfold rdat; rw [(dat m c).toR.override_after_of_eq_none (ovr := ovr m c) (w := 2) rfl]
  exact (Dat.Leaves.live_iff (dat m c) (Or.inl rfl)).mpr (after_dat2 m c t).symm
/-- The output window's relation is `outRel`. -/
theorem after3 (c : Dev nD) : (rdat m c).after 3 = outRel m c :=
  (dat m c).toR.override_after_of_eq_some (ovr := ovr m c) (w := 3) rfl

/-! ## The body obligation -/

/-- At every point, from buffers the body may find, the body runs and leaves buffers in the windows' relations. -/
theorem body_obligation (c : Dev nD) : (rdat (F := F) m c).BodyObligation (defs₀ (F := F)) Variants.none () Set.univ := by
  intro t Y hY
  have h0 := finds0 m c t (Y 0) (hY 0)
  have h1 := finds1 m c t (Y 1) (hY 1)
  have h2 := finds2 m c t (Y 2) (hY 2)
  rw [bigSep_W0, bigSep_W0]
  show _ ⊢ wp frame (wpE (defs₀ (F := F)) Variants.none c none) Set.univ (bodyAt0 t) _
  rw [show (rdat m c).Φ t.succ = (rdat m c).Φ t.castSucc from rfl,
    show (rdat m c).owesAt () t.succ = (rdat m c).owesAt () t.castSucc from rfl]
  iintro ⟨HΦ, Ho, H0, H1, H2, H3⟩
  iapply ((kernelRun c (grid0.coords t) _ _ _ _ _ _ _ _ (Y 0) (Y 1) (Y 2) (Y 3)) Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]
  · iexists (Y 0); isplitr; · ipureintro; rw [h0]; exact leaves0 m c t _
    iexact H0
  isplitl [H1]
  · iexists (Y 1); isplitr; · ipureintro; rw [h1]; exact leaves1 m c t _
    iexact H1
  isplitl [H2]
  · iexists (Y 2); isplitr; · ipureintro; rw [h2]; exact leaves2 m c t _
    iexact H2
  iexists _; isplitr; swap; · iexact H3
  ipureintro
  rw [after3, h0, h1, h2]
  rfl

/-! ## The run -/

set_option backward.isDefEq.respectTransparency.types false in
/-- Every weakly fair execution of @main terminates; every windowed array ends at contents the relational data allow
    after every write-back, every other unscoped buffer as the region found it. -/
theorem run_main : θ_run defs (onTc (τ := τ) (main (F := F))) (s₀ m ρ) (Pipeline.RDat.FramePost (cfgs 0) (fun c => rdat m c) (V m)) :=
  Pipeline.RDat.θ_run_frame cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := A_eq m) (hΦ := fun _ _ => rfl)

/-! ## The output array after the run

The output window's block is the whole array, at block index (0, 0) at both points, written back after the last point
only. So the array ends at what the body left at the last point: what some buffer contents `Y0` become after the
first point replaces row 0 and the second replaces row 1 — and both rows being replaced, nothing of `Y0` is left. -/

/-- The output window is never fetched. -/
theorem fetch3 : ∀ t : Fin cfg0.N, (cfg0.win 3).fetch t = false :=
  (by decide +kernel : ∀ t : Fin grid0.N, win0_3.fetch t = false)
/-- Its block index is (0, 0) at every point. -/
theorem index3 : ∀ (t : Fin cfg0.N) (a : Fin 2), win0_3.index t a = 0 :=
  (by decide +kernel : ∀ (t : Fin grid0.N) (a : Fin 2), win0_3.index t a = 0)
/-- The row the body stores at point `t` is row `t`, from lane 0. -/
theorem off_eq : ∀ t : Fin cfg0.N, k0_off1 (grid0.coords t) = ![t.val, 0] :=
  (by decide +kernel : ∀ t : Fin grid0.N, k0_off1 (grid0.coords t) = ![t.val, 0])

/-- The last point, and the first. -/
def tLast : Fin cfg0.N := ⟨1, by rw [show cfg0.N = 2 from N_0]; decide⟩
def tFirst : Fin cfg0.N := ⟨0, by rw [show cfg0.N = 2 from N_0]; decide⟩

/-- Contents the output array may hold after every write-back are some buffer contents with row 0 replaced by the first
    point's payload and then row 1 by the last point's. -/
theorem final_out (c : Dev nD) (Fm : Buf (Elt F) ((cfg0.win 3).arr.view.loc (c.tc : Thread nD τ)))
    (h : (rdat m c).ArrAt 3 cfg0.N Fm) :
    ∃ Y0 : Vec F S2x128 .f32, Fm = rowStored (grid0.coords tLast) (payAt m c tLast) (rowStored (grid0.coords tFirst) (payAt m c tFirst) Y0) := by
  have hN : cfg0.N = 2 := N_0
  have h2 : (rdat m c).ArrAt 3 2 Fm := by rw [← hN]; exact h
  simp only [RDat.ArrAt] at h2
  rw [dif_pos (show 1 < cfg0.N by rw [hN]; decide), if_pos ((flush0_3 _).mpr rfl)] at h2
  obtain ⟨G₀, X, -, ⟨Y1, hF1, hA1⟩, rfl⟩ := h2
  rw [after3] at hA1
  rcases ((rdat m c).finds_of_pos (w := 3) (t := tLast) (fetch3 _) Nat.one_ne_zero Y1).mp hF1 with hfl | ⟨Y0, -, hA0⟩
  · exact absurd ((flush0_3 _).mp hfl) (show ¬ ((1 - 1) % 2 = 1) by omega)
  rw [after3] at hA0
  refine ⟨Y0, ?_⟩
  funext o
  have e : ((cfg0.win 3).blk tLast).view.emb (o : S2x128.Idx) = o := by
    funext a; apply Fin.ext
    show win0_3.index tLast a * S2x128.size a + 1 * (o a).val = (o a).val
    rw [index3]; omega
  refine (congrArg (View.write (Elt F) ((cfg0.win 3).blk tLast).view G₀ ((cfg0.win 3).cut (cfg0.grid.coords tLast) X) Finset.univ) e.symm).trans ?_
  rw [View.write_emb_of_mem _ _ (Finset.mem_univ _)]
  rw [hA1, hA0]
  rfl

/-- The buffer after a point, read at row `b` and lane `g`: the payload's lane under the stored row, the earlier
    contents elsewhere. -/
theorem rowStored_apply (i : grid0.Coords) (p : FVec F S1x128 .f32) (Y : Vec F S2x128 .f32) (r : Nat)
    (hoff : k0_off1 i = ![r, 0]) (b : Fin 2) (g : Fin 128) :
    rowStored i p Y (ValueIdx.ix2 b g) = if b.val = r then p (ValueIdx.ix2 (0 : Fin 1) g) else Y (ValueIdx.ix2 b g) := by
  unfold rowStored
  by_cases hb : b.val = r
  · have hc : ∀ a, k0_off1 i a ≤ ((ValueIdx.ix2 b g : S2x128.Idx) a).val ∧ ((ValueIdx.ix2 b g : S2x128.Idx) a).val < k0_off1 i a + S1x128.size a := by
      rw [hoff]; intro a
      match a with
      | ⟨0, _⟩ => show r ≤ b.val ∧ b.val < r + 1; omega
      | ⟨1, _⟩ => show 0 ≤ g.val ∧ g.val < 0 + 128; omega
    rw [dif_pos hc, if_pos hb]
    refine congrArg p ?_
    funext a; apply Fin.ext
    rw [Rect.unitLocal_val]
    match a with
    | ⟨0, _⟩ => show b.val - k0_off1 i 0 = 0; rw [hoff]; show b.val - r = 0; omega
    | ⟨1, _⟩ => show g.val - k0_off1 i 1 = g.val; rw [hoff]; show g.val - 0 = g.val; omega
  · have hc : ¬ ∀ a, k0_off1 i a ≤ ((ValueIdx.ix2 b g : S2x128.Idx) a).val ∧ ((ValueIdx.ix2 b g : S2x128.Idx) a).val < k0_off1 i a + S1x128.size a := fun h => by
      have h0 := h 0
      rw [hoff] at h0
      have h0' : r ≤ b.val ∧ b.val < r + 1 := h0
      omega
    rw [dif_neg hc, if_neg hb]

/-- THE OUTPUT ARRAY after the run, read at row `b` and lane `g`: the payload of point `b` at lane `g`. -/
theorem final_out_apply (c : Dev nD) (Fm : Buf (Elt F) ((cfg0.win 3).arr.view.loc (c.tc : Thread nD τ)))
    (h : (rdat m c).ArrAt 3 cfg0.N Fm) (b : Fin 2) (g : Fin 128) :
    Fm (ValueIdx.ix2 b g) = if b.val = 1 then payAt m c tLast (ValueIdx.ix2 (0 : Fin 1) g) else payAt m c tFirst (ValueIdx.ix2 (0 : Fin 1) g) := by
  obtain ⟨Y0, rfl⟩ := final_out m c Fm h
  rw [rowStored_apply _ _ _ 1 (off_eq tLast), rowStored_apply _ _ _ 0 (off_eq tFirst)]
  by_cases hb : b.val = 1
  · simp only [if_pos hb]
  · have hb0 : b.val = 0 := by omega
    simp only [if_neg hb, if_pos hb0]

/-! ## The frame -/

/-- Every weakly fair execution of @main terminates with the argument arrays unchanged: an input array is never written
    (what it may hold after the write-backs is its entry contents). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨Eq.mp (congrFun ((rdat m c).ArrAt_in 0 rfl _) _) ((h c).1 0),
       Eq.mp (congrFun ((rdat m c).ArrAt_in 1 rfl _) _) ((h c).1 1),
       Eq.mp (congrFun ((rdat m c).ArrAt_in 2 rfl _) _) ((h c).1 2)⟩) (run_main m ρ)

end Cert.Kernel.Body

end
-- ==== Proof.KernelIdealBody.lean ====
/-
  The kernel body at a grid point, the proof data of its one pipeline, and the run (the program read at the ideal instance).

  The body loads its three input buffers whole (the batch element's features, its adjacency, the weight matrix),
  computes one row of 128 lanes from them, and stores it into row `i` of the two-row output buffer, `i` the grid
  coordinate; the other row it leaves alone. So what the output buffer holds after a point is a function of what it
  held before, and before the first point that is whatever the buffer held at the launch: the output window is
  therefore constrained by a relation (found contents ↦ left contents) rather than named, while the three inputs are
  named by their blocks. The output's block is the whole array and is written back once, after the last point, by
  when both rows have been stored: the array written back is the two payloads stacked, whatever the buffer held at
  the launch. Everything here is stated for any float instance.
-/
import proofs.«135903_g37177236914935_cont_8to1_b_467_17_alg».proof.Proof.Gen.KernelIdeal.Frame
import proofs.«135903_g37177236914935_cont_8to1_b_467_17_alg».proof.Proof.Gen.KernelIdeal.Skeleton
import Idealize.ShloMosaic.Lib.WritesUnit
import Idealize.ShloMosaic.Lib.Pipeline.Value
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What one grid point does to the output buffer

The output buffer has two rows of 128 lanes. At grid coordinate `i` the body overwrites row `i` with its payload
(a function of the three input blocks) and leaves the other row as it found it. -/

/-- The output buffer's contents after the store at coordinate `i` of the row `p`, given the contents `Y` before:
    `p` under the stored row, `Y` elsewhere. -/
def rowStored (i : grid0.Coords) (p : FVec F S1x128 .f32) (Y : Vec F S2x128 .f32) : Vec F S2x128 .f32 :=
  fun y => if h : ∀ a, k0_off1 i a ≤ (y a).val ∧ (y a).val < k0_off1 i a + S1x128.size a then
      p (Rect.unitLocal (s := S2x128) (off := k0_off1 i) (size := S1x128.size) y h)
    else Y y

theorem zeros3 : (![0, 0, 0] : Fin 3 → Nat) = fun _ => 0 := by
  funext a; match a with | ⟨0, _⟩ => rfl | ⟨1, _⟩ => rfl | ⟨2, _⟩ => rfl
theorem zeros2 : (![0, 0] : Fin 2 → Nat) = fun _ => 0 := by
  funext a; match a with | ⟨0, _⟩ => rfl | ⟨1, _⟩ => rfl

set_option maxHeartbeats 1000000 in
/-- The body's triple on whole staging memrefs: from the three input buffers at `x0`, `x1`, `x2` and the output
    buffer at `d`, the body runs to the inputs unchanged and the output at `d` with row `i` replaced by the payload
    of the inputs. -/
theorem kernelRun (c : Dev nD) (i : grid0.Coords) (arg1 : Memref sig .tc .vmem S1x512x128 .f32) (harg1 : arg1.IsWhole) (arg2 : Memref sig .tc .vmem S1x512x512 .f32) (harg2 : arg2.IsWhole) (arg3 : Memref sig .tc .vmem S128x128 .f32) (harg3 : arg3.IsWhole) (arg4 : Memref sig .tc .vmem S2x128 .f32) (harg4 : arg4.IsWhole)
    (x0 : Vec F S1x512x128 .f32) (x1 : Vec F S1x512x512 .f32) (x2 : Vec F S128x128 .f32) (d : Vec F S2x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare d
            ∗ (iprop(owns (c : Thread nD τ) arg1 fullShare x0 ∗ owns (c : Thread nD τ) arg2 fullShare x1 ∗ owns (c : Thread nD τ) arg3 fullShare x2
                ∗ owns (c : Thread nD τ) arg4 fullShare (rowStored i (k0_pay1 x1 x0 x2) d)) -∗ K ⟨⟩))
          ⊢ wp frame (wpE (defs₀ (F := F)) Variants.none c none) E (cc0__body i arg1 harg1 arg2 harg2 arg3 harg3 arg4 harg4) K := by
    intro E K
    simp only [cc0__body_eq_skeleton]; unfold cc0__body_skel
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; isplitr; swap; · iexact H3
    ipureintro
    funext y
    rw [View.read_writes_cons_unit arg4.view f3 _ _ [] y rfl]
    simp only [View.readAt_eq_ld, harg1.read_unread, harg2.read_unread, harg3.read_unread, View.writes_nil,
      View.ld_unit_zero (S := S1x512x512) zeros3, View.ld_unit_zero (S := S1x512x128) zeros3,
      View.ld_unit_zero (S := S128x128) zeros2, hf3]
    rfl

/-! ## The proof data

The three inputs are named: after the body each input buffer holds its block. The output buffer is constrained, not
named: what the body leaves there is what it found with the row of its grid coordinate replaced by the payload of the
point's input blocks — the other row is whatever the buffer held, which at the first point nothing states. -/

/-- The exact part: the arrays as the region finds them, each input's buffer at its block. The output window's entry
    is read by nothing (its relation is overridden below). -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

/-- The payload of point `t`: the body's arithmetic of the point's three input blocks. -/
def payAt (c : Dev nD) (t : Fin cfg0.N) : FVec F S1x128 .f32 :=
  k0_pay1 (iblk m c 1 t) (iblk m c 0 t) (iblk m c 2 t)

/-- The output window's relation at point `t`: the row of the point's coordinate takes the point's payload, the rest
    stays. -/
def outRel (c : Dev nD) (t : Fin cfg0.N) (Y X : Vec F S2x128 .f32) : Prop :=
  X = rowStored (grid0.coords t) (payAt m c t) Y

/-- Which windows are constrained by a relation of their own: the output window only. -/
def ovr (c : Dev nD) : (w : Fin cfg0.W) → Option (Fin cfg0.N → (Y X : (cfg0.win w).block.Idx → Elt F (cfg0.win w).elt) → Prop) :=
  fun w => match w with
    | ⟨0, _⟩ => none
    | ⟨1, _⟩ => none
    | ⟨2, _⟩ => none
    | ⟨3, _⟩ => some (outRel m c)
    | ⟨_ + 4, h⟩ => absurd h (Nat.not_lt.2 (Nat.le_add_left _ _))

/-- The relational proof data of the one pipeline on core `c`. -/
def rdat (c : Dev nD) : RDat τ (Elt F) Unit ℕ (UR sig nD τ) ℕ cfg0 c := (dat m c).toR.override (ovr m c)

theorem A_eq (c : Dev nD) (w : Fin cfg0.W) : (rdat m c).A w = V m c (Pipeline.arrRef spec0 w) := rfl

theorem after_dat0 (c : Dev nD) (t : Fin cfg0.N) : (dat m c).after 0 t = iblk m c 0 t := by dsimp only [dat]
theorem after_dat1 (c : Dev nD) (t : Fin cfg0.N) : (dat m c).after 1 t = iblk m c 1 t := by dsimp only [dat]
theorem after_dat2 (c : Dev nD) (t : Fin cfg0.N) : (dat m c).after 2 t = iblk m c 2 t := by dsimp only [dat]

/-- What the body finds in an input buffer is the input's block, fetched at this point or kept from an earlier one. -/
theorem finds0 (c : Dev nD) (t : Fin cfg0.N) (Y) (h : (rdat m c).Finds 0 t Y) : Y = iblk m c 0 t := by
  obtain ⟨d, hd⟩ := (dat m c).toR_finds 0 t Y (((dat m c).toR.override_finds (ovr := ovr m c) (w := 0) rfl t Y).mp h)
  rw [hd]; exact before0_0_of m (dat m c) rfl (after_dat0 m c) t d
theorem finds1 (c : Dev nD) (t : Fin cfg0.N) (Y) (h : (rdat m c).Finds 1 t Y) : Y = iblk m c 1 t := by
  obtain ⟨d, hd⟩ := (dat m c).toR_finds 1 t Y (((dat m c).toR.override_finds (ovr := ovr m c) (w := 1) rfl t Y).mp h)
  rw [hd]; exact before0_1_of m (dat m c) rfl (after_dat1 m c) t d
theorem finds2 (c : Dev nD) (t : Fin cfg0.N) (Y) (h : (rdat m c).Finds 2 t Y) : Y = iblk m c 2 t := by
  obtain ⟨d, hd⟩ := (dat m c).toR_finds 2 t Y (((dat m c).toR.override_finds (ovr := ovr m c) (w := 2) rfl t Y).mp h)
  rw [hd]; exact before0_2_of m (dat m c) rfl (after_dat2 m c) t d

/-- An input buffer left at its block satisfies the input's relation. -/
theorem leaves0 (c : Dev nD) (t : Fin cfg0.N) (Y) : (rdat m c).after 0 t Y (iblk m c 0 t) := by
  unfold rdat; rw [(dat m c).toR.override_after_of_eq_none (ovr := ovr m c) (w := 0) rfl]
  exact (Dat.Leaves.live_iff (dat m c) (Or.inl rfl)).mpr (after_dat0 m c t).symm
theorem leaves1 (c : Dev nD) (t : Fin cfg0.N) (Y) : (rdat m c).after 1 t Y (iblk m c 1 t) := by
  unfold rdat; rw [(dat m c).toR.override_after_of_eq_none (ovr := ovr m c) (w := 1) rfl]
  exact (Dat.Leaves.live_iff (dat m c) (Or.inl rfl)).mpr (after_dat1 m c t).symm
theorem leaves2 (c : Dev nD) (t : Fin cfg0.N) (Y) : (rdat m c).after 2 t Y (iblk m c 2 t) := by
  unfold rdat; rw [(dat m c).toR.override_after_of_eq_none (ovr := ovr m c) (w := 2) rfl]
  exact (Dat.Leaves.live_iff (dat m c) (Or.inl rfl)).mpr (after_dat2 m c t).symm
/-- The output window's relation is `outRel`. -/
theorem after3 (c : Dev nD) : (rdat m c).after 3 = outRel m c :=
  (dat m c).toR.override_after_of_eq_some (ovr := ovr m c) (w := 3) rfl

/-! ## The body obligation -/

/-- At every point, from buffers the body may find, the body runs and leaves buffers in the windows' relations. -/
theorem body_obligation (c : Dev nD) : (rdat (F := F) m c).BodyObligation (defs₀ (F := F)) Variants.none () Set.univ := by
  intro t Y hY
  have h0 := finds0 m c t (Y 0) (hY 0)
  have h1 := finds1 m c t (Y 1) (hY 1)
  have h2 := finds2 m c t (Y 2) (hY 2)
  rw [bigSep_W0, bigSep_W0]
  show _ ⊢ wp frame (wpE (defs₀ (F := F)) Variants.none c none) Set.univ (bodyAt0 t) _
  rw [show (rdat m c).Φ t.succ = (rdat m c).Φ t.castSucc from rfl,
    show (rdat m c).owesAt () t.succ = (rdat m c).owesAt () t.castSucc from rfl]
  iintro ⟨HΦ, Ho, H0, H1, H2, H3⟩
  iapply ((kernelRun c (grid0.coords t) _ _ _ _ _ _ _ _ (Y 0) (Y 1) (Y 2) (Y 3)) Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]
  · iexists (Y 0); isplitr; · ipureintro; rw [h0]; exact leaves0 m c t _
    iexact H0
  isplitl [H1]
  · iexists (Y 1); isplitr; · ipureintro; rw [h1]; exact leaves1 m c t _
    iexact H1
  isplitl [H2]
  · iexists (Y 2); isplitr; · ipureintro; rw [h2]; exact leaves2 m c t _
    iexact H2
  iexists _; isplitr; swap; · iexact H3
  ipureintro
  rw [after3, h0, h1, h2]
  rfl

/-! ## The run -/

set_option backward.isDefEq.respectTransparency.types false in
/-- Every weakly fair execution of @main terminates; every windowed array ends at contents the relational data allow
    after every write-back, every other unscoped buffer as the region found it. -/
theorem run_main : θ_run defs (onTc (τ := τ) (main (F := F))) (s₀ m ρ) (Pipeline.RDat.FramePost (cfgs 0) (fun c => rdat m c) (V m)) :=
  Pipeline.RDat.θ_run_frame cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := A_eq m) (hΦ := fun _ _ => rfl)

/-! ## The output array after the run

The output window's block is the whole array, at block index (0, 0) at both points, written back after the last point
only. So the array ends at what the body left at the last point: what some buffer contents `Y0` become after the
first point replaces row 0 and the second replaces row 1 — and both rows being replaced, nothing of `Y0` is left. -/

/-- The output window is never fetched. -/
theorem fetch3 : ∀ t : Fin cfg0.N, (cfg0.win 3).fetch t = false :=
  (by decide +kernel : ∀ t : Fin grid0.N, win0_3.fetch t = false)
/-- Its block index is (0, 0) at every point. -/
theorem index3 : ∀ (t : Fin cfg0.N) (a : Fin 2), win0_3.index t a = 0 :=
  (by decide +kernel : ∀ (t : Fin grid0.N) (a : Fin 2), win0_3.index t a = 0)
/-- The row the body stores at point `t` is row `t`, from lane 0. -/
theorem off_eq : ∀ t : Fin cfg0.N, k0_off1 (grid0.coords t) = ![t.val, 0] :=
  (by decide +kernel : ∀ t : Fin grid0.N, k0_off1 (grid0.coords t) = ![t.val, 0])

/-- The last point, and the first. -/
def tLast : Fin cfg0.N := ⟨1, by rw [show cfg0.N = 2 from N_0]; decide⟩
def tFirst : Fin cfg0.N := ⟨0, by rw [show cfg0.N = 2 from N_0]; decide⟩

/-- Contents the output array may hold after every write-back are some buffer contents with row 0 replaced by the first
    point's payload and then row 1 by the last point's. -/
theorem final_out (c : Dev nD) (Fm : Buf (Elt F) ((cfg0.win 3).arr.view.loc (c.tc : Thread nD τ)))
    (h : (rdat m c).ArrAt 3 cfg0.N Fm) :
    ∃ Y0 : Vec F S2x128 .f32, Fm = rowStored (grid0.coords tLast) (payAt m c tLast) (rowStored (grid0.coords tFirst) (payAt m c tFirst) Y0) := by
  have hN : cfg0.N = 2 := N_0
  have h2 : (rdat m c).ArrAt 3 2 Fm := by rw [← hN]; exact h
  simp only [RDat.ArrAt] at h2
  rw [dif_pos (show 1 < cfg0.N by rw [hN]; decide), if_pos ((flush0_3 _).mpr rfl)] at h2
  obtain ⟨G₀, X, -, ⟨Y1, hF1, hA1⟩, rfl⟩ := h2
  rw [after3] at hA1
  rcases ((rdat m c).finds_of_pos (w := 3) (t := tLast) (fetch3 _) Nat.one_ne_zero Y1).mp hF1 with hfl | ⟨Y0, -, hA0⟩
  · exact absurd ((flush0_3 _).mp hfl) (show ¬ ((1 - 1) % 2 = 1) by omega)
  rw [after3] at hA0
  refine ⟨Y0, ?_⟩
  funext o
  have e : ((cfg0.win 3).blk tLast).view.emb (o : S2x128.Idx) = o := by
    funext a; apply Fin.ext
    show win0_3.index tLast a * S2x128.size a + 1 * (o a).val = (o a).val
    rw [index3]; omega
  refine (congrArg (View.write (Elt F) ((cfg0.win 3).blk tLast).view G₀ ((cfg0.win 3).cut (cfg0.grid.coords tLast) X) Finset.univ) e.symm).trans ?_
  rw [View.write_emb_of_mem _ _ (Finset.mem_univ _)]
  rw [hA1, hA0]
  rfl

/-- The buffer after a point, read at row `b` and lane `g`: the payload's lane under the stored row, the earlier
    contents elsewhere. -/
theorem rowStored_apply (i : grid0.Coords) (p : FVec F S1x128 .f32) (Y : Vec F S2x128 .f32) (r : Nat)
    (hoff : k0_off1 i = ![r, 0]) (b : Fin 2) (g : Fin 128) :
    rowStored i p Y (ValueIdx.ix2 b g) = if b.val = r then p (ValueIdx.ix2 (0 : Fin 1) g) else Y (ValueIdx.ix2 b g) := by
  unfold rowStored
  by_cases hb : b.val = r
  · have hc : ∀ a, k0_off1 i a ≤ ((ValueIdx.ix2 b g : S2x128.Idx) a).val ∧ ((ValueIdx.ix2 b g : S2x128.Idx) a).val < k0_off1 i a + S1x128.size a := by
      rw [hoff]; intro a
      match a with
      | ⟨0, _⟩ => show r ≤ b.val ∧ b.val < r + 1; omega
      | ⟨1, _⟩ => show 0 ≤ g.val ∧ g.val < 0 + 128; omega
    rw [dif_pos hc, if_pos hb]
    refine congrArg p ?_
    funext a; apply Fin.ext
    rw [Rect.unitLocal_val]
    match a with
    | ⟨0, _⟩ => show b.val - k0_off1 i 0 = 0; rw [hoff]; show b.val - r = 0; omega
    | ⟨1, _⟩ => show g.val - k0_off1 i 1 = g.val; rw [hoff]; show g.val - 0 = g.val; omega
  · have hc : ¬ ∀ a, k0_off1 i a ≤ ((ValueIdx.ix2 b g : S2x128.Idx) a).val ∧ ((ValueIdx.ix2 b g : S2x128.Idx) a).val < k0_off1 i a + S1x128.size a := fun h => by
      have h0 := h 0
      rw [hoff] at h0
      have h0' : r ≤ b.val ∧ b.val < r + 1 := h0
      omega
    rw [dif_neg hc, if_neg hb]

/-- THE OUTPUT ARRAY after the run, read at row `b` and lane `g`: the payload of point `b` at lane `g`. -/
theorem final_out_apply (c : Dev nD) (Fm : Buf (Elt F) ((cfg0.win 3).arr.view.loc (c.tc : Thread nD τ)))
    (h : (rdat m c).ArrAt 3 cfg0.N Fm) (b : Fin 2) (g : Fin 128) :
    Fm (ValueIdx.ix2 b g) = if b.val = 1 then payAt m c tLast (ValueIdx.ix2 (0 : Fin 1) g) else payAt m c tFirst (ValueIdx.ix2 (0 : Fin 1) g) := by
  obtain ⟨Y0, rfl⟩ := final_out m c Fm h
  rw [rowStored_apply _ _ _ 1 (off_eq tLast), rowStored_apply _ _ _ 0 (off_eq tFirst)]
  by_cases hb : b.val = 1
  · simp only [if_pos hb]
  · have hb0 : b.val = 0 := by omega
    simp only [if_neg hb, if_pos hb0]

/-! ## The frame -/

/-- Every weakly fair execution of @main terminates with the argument arrays unchanged: an input array is never written
    (what it may hold after the write-backs is its entry contents). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨Eq.mp (congrFun ((rdat m c).ArrAt_in 0 rfl _) _) ((h c).1 0),
       Eq.mp (congrFun ((rdat m c).ArrAt_in 1 rfl _) _) ((h c).1 1),
       Eq.mp (congrFun ((rdat m c).ArrAt_in 2 rfl _) _) ((h c).1 2)⟩) (run_main m ρ)

end Cert.KernelIdeal.Body

end
-- ==== Proof.Spec.lean ====
/-
  The function both programs compute, index by index, on the extended reals.

  For a batch element `b`, a node `j` and a feature `f`, the aggregated feature is the sum over source nodes `i` of
  the edge weight `adj b i j` times the source feature `x b i f` (the transposed adjacency applied to the features).
  The hidden unit `g` of node `j` is the positive part of the aggregated row times column `g` of the weight matrix.
  The pooled output `(b, g)` is the sum of that hidden unit over the 512 nodes of batch element `b`, times 2⁻⁹.
-/
import Idealize.ShloMosaic.PureOps.Ideal
import Idealize.ShloMosaic.Lib.ValueIdx

noncomputable section

namespace Cert.Spec

open Idealize.ShloMosaic Idealize.ShloMosaic.ValueIdx

/-- The aggregated feature `f` of node `j` in batch element `b`: `∑ i, adj b i j * x b i f`. -/
def agg (x : (⟨3, ![2, 512, 128]⟩ : Shape).Idx → EReal) (adj : (⟨3, ![2, 512, 512]⟩ : Shape).Idx → EReal)
    (b : Fin 2) (j : Fin 512) (f : Fin 128) : EReal :=
  ∑ i : Fin 512, adj (ix3 b i j) * x (ix3 b i f)

/-- The hidden unit `g` of node `j` in batch element `b`: the positive part of `∑ f, agg b j f * W f g`. -/
def hidden (x : (⟨3, ![2, 512, 128]⟩ : Shape).Idx → EReal) (adj : (⟨3, ![2, 512, 512]⟩ : Shape).Idx → EReal)
    (W : (⟨2, ![128, 128]⟩ : Shape).Idx → EReal) (b : Fin 2) (j : Fin 512) (g : Fin 128) : EReal :=
  max (∑ f : Fin 128, agg x adj b j f * W (ix2 f g)) 0

/-- The pooled output: the hidden units summed over the nodes of a batch element, times the word of 2⁻⁹. -/
def pooled (x : (⟨3, ![2, 512, 128]⟩ : Shape).Idx → EReal) (adj : (⟨3, ![2, 512, 512]⟩ : Shape).Idx → EReal)
    (W : (⟨2, ![128, 128]⟩ : Shape).Idx → EReal) : (⟨2, ![2, 128]⟩ : Shape).Idx → EReal :=
  fun o => (∑ j : Fin 512, hidden x adj W (o 0) j (o 1)) * Ideal.ofBits .f32 0x3B000000#32

end Cert.Spec

end
-- ==== Proof.LibMatmulPlain.lean ====
/-
  A plain matrix product read at an index.

  A `tpu.matmul` of a left operand `[M, K]` by a right operand `[K, N]` that contracts the left operand's second
  axis against the right operand's first, with no batch axis, started from the zero accumulator, is at the exact
  values the textbook product: entry `(p, o)` is the sum over `k : Fin K` of `l (p, k) * r (k, o)`. The operand
  indices a contraction position selects are read off the dimension record axis by axis: a contracted axis takes
  the contraction coordinate, the left operand's free axis the result's row, the right operand's free axis the
  result's column. Stated for any record whose six axis lists are `[1] [0] [0] [1] [] []` (on a printed record each
  hypothesis is `rfl`), general in the three extents and in the operands' float formats.
-/
import Idealize.ShloMosaic.PureOps.Ideal.Laws
import Idealize.ShloMosaic.Lib.ValueIdx

noncomputable section

open scoped BigOperators

namespace Cert.MatmulPlain

open Idealize.ShloMosaic Idealize.ShloMosaic.ValueIdx

variable {M K N : ℕ}

/-- A coordinate of `ix2 p o` read at an axis number known only through an equation. -/
private theorem ix2_val_of_eq {a b : ℕ} (p : Fin a) (o : Fin b) (q : ℕ) (hq : q < 2) :
    (q = 0 → ((ix2 p o : (⟨2, ![a, b]⟩ : Shape).Idx) ⟨q, hq⟩).val = p.val)
    ∧ (q = 1 → ((ix2 p o : (⟨2, ![a, b]⟩ : Shape).Idx) ⟨q, hq⟩).val = o.val) :=
  ⟨fun h => by subst h; rfl, fun h => by subst h; rfl⟩

/-- The one contracted axis has extent `K`, and the contraction shape has that one axis. -/
theorem contr_rank (d : DotDims ⟨2, ![M, K]⟩ ⟨2, ![K, N]⟩ ⟨2, ![M, N]⟩) (hlc : d.lhsContracting = [1]) :
    d.contr.rank = 1 := by rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos)]
  have : d.lhsContracting[0]'(by rw [hlc]; exact Nat.one_pos) = (1 : Fin 2) := by simp [hlc]
  rw [this]; rfl

/-- The left operand's index at result `(p, o)` and contraction coordinate `k` is `(p, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (p : Fin M) (o : Fin N) (k : Fin K) :
    d.lhsIdx (ix2 p o) ((contrEquiv1 d K (contr_rank d hlc) (contr_size d hlc)).symm k) = ix2 p k := by
  have hk := contrEquiv1_symm_val d K (contr_rank d hlc) (contr_size d hlc) k
  funext a
  apply Fin.ext
  match a with
  | ⟨0, _⟩ =>
    unfold DotDims.lhsIdx
    rw [dif_neg (by rw [hlb]; exact List.not_mem_nil), dif_pos (by rw [hln]; exact List.mem_singleton.mpr rfl)]
    simp only [Fin.val_cast]
    exact (ix2_val_of_eq p o _ _).1 (by simp [hlb, hln])
  | ⟨1, _⟩ => exact (d.lhsIdx_val_of_single hlc _ _).trans hk

/-- The right operand's index at result `(p, o)` and contraction coordinate `k` is `(k, o)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (p : Fin M) (o : Fin N) (k : Fin K) :
    d.rhsIdx (ix2 p o) ((contrEquiv1 d K (contr_rank d hlc) (contr_size d hlc)).symm k) = ix2 k o := by
  have hk := contrEquiv1_symm_val d K (contr_rank d hlc) (contr_size d hlc) k
  funext a
  apply Fin.ext
  match a with
  | ⟨0, _⟩ => exact (d.rhsIdx_val_of_single hrc _ _).trans hk
  | ⟨1, _⟩ =>
    unfold DotDims.rhsIdx
    rw [dif_neg (by rw [hrb]; exact List.not_mem_nil), dif_pos (by rw [hrn]; exact List.mem_singleton.mpr rfl)]
    simp only [Fin.val_cast]
    exact (ix2_val_of_eq p o _ _).2 (by simp [hlb, hln, hrn])

/-- A plain matrix product from the zero accumulator, read at `(p, o)`: `∑ k, l (p, k) * r (k, o)`. -/
theorem matmul_plain_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (p : Fin M) (o : Fin N) :
    FloatOps.matmul d prec l r (constant (F := Ideal) ⟨2, ![M, N]⟩ .f32 0x00000000#32) (ix2 p o)
      = ∑ k : Fin K, l (ix2 p k) * r (ix2 k o) := by
  rw [Ideal.matmul_constant_zero_apply,
    ← Equiv.sum_comp (contrEquiv1 d K (contr_rank d hlc) (contr_size d hlc)).symm]
  refine Finset.sum_congr rfl fun k _ => ?_
  rw [lhsIdx_eq d hlc hln hlb p o k, rhsIdx_eq d hlc hrc hln hrn hlb hrb p o k]

end Cert.MatmulPlain

end
-- ==== Proof.LibMatmulColumns.lean ====
/-
  A matrix product that contracts the FIRST axis of both operands, read at an index.

  A `tpu.matmul` of a left operand `[K, M]` by a right operand `[K, N]` that contracts the left operand's first
  axis against the right operand's first, with no batch axis, started from the zero accumulator, is at the exact
  values the product of the transposed left operand by the right operand: entry `(p, o)` is the sum over `k : Fin K`
  of `l (k, p) * r (k, o)`. The operand indices a contraction position selects are read off the dimension record axis
  by axis: a contracted axis takes the contraction coordinate, the left operand's free axis the result's row, the
  right operand's free axis the result's column. Stated for any record whose six axis lists are
  `[0] [0] [1] [1] [] []` (on a printed record each hypothesis is `rfl`), general in the three extents and in the
  operands' float formats.
-/
import Idealize.ShloMosaic.PureOps.Ideal.Laws
import Idealize.ShloMosaic.Lib.ValueIdx

noncomputable section

open scoped BigOperators

namespace Cert.MatmulColumns

open Idealize.ShloMosaic Idealize.ShloMosaic.ValueIdx

variable {M K N : ℕ}

/-- A coordinate of `ix2 p o` read at an axis number known only through an equation. -/
private theorem ix2_val_of_eq {a b : ℕ} (p : Fin a) (o : Fin b) (q : ℕ) (hq : q < 2) :
    (q = 0 → ((ix2 p o : (⟨2, ![a, b]⟩ : Shape).Idx) ⟨q, hq⟩).val = p.val)
    ∧ (q = 1 → ((ix2 p o : (⟨2, ![a, b]⟩ : Shape).Idx) ⟨q, hq⟩).val = o.val) :=
  ⟨fun h => by subst h; rfl, fun h => by subst h; rfl⟩

/-- The contraction shape has one axis. -/
theorem contr_rank (d : DotDims ⟨2, ![K, M]⟩ ⟨2, ![K, N]⟩ ⟨2, ![M, N]⟩) (hlc : d.lhsContracting = [0]) :
    d.contr.rank = 1 := by rw [d.rank_contr, hlc]; rfl

/-- The one contracted axis has extent `K`. -/
theorem contr_size (d : DotDims ⟨2, ![K, M]⟩ ⟨2, ![K, N]⟩ ⟨2, ![M, N]⟩) (hlc : d.lhsContracting = [0]) :
    d.contr.size ⟨0, by rw [contr_rank d hlc]; exact Nat.one_pos⟩ = K := by
  rw [d.size_contr 0 (by rw [hlc]; exact Nat.one_pos)]
  have : d.lhsContracting[0]'(by rw [hlc]; exact Nat.one_pos) = (0 : Fin 2) := by simp [hlc]
  rw [this]; rfl

/-- The left operand's index at result `(p, o)` and contraction coordinate `k` is `(k, p)`. -/
theorem lhsIdx_eq (d : DotDims ⟨2, ![K, M]⟩ ⟨2, ![K, N]⟩ ⟨2, ![M, N]⟩)
    (hlc : d.lhsContracting = [0]) (hln : d.lhsNonContracting = [1]) (hlb : d.lhsBatch = [])
    (p : Fin M) (o : Fin N) (k : Fin K) :
    d.lhsIdx (ix2 p o) ((contrEquiv1 d K (contr_rank d hlc) (contr_size d hlc)).symm k) = ix2 k p := by
  have hk := contrEquiv1_symm_val d K (contr_rank d hlc) (contr_size d hlc) k
  funext a
  apply Fin.ext
  match a with
  | ⟨0, _⟩ => exact (d.lhsIdx_val_of_single hlc _ _).trans hk
  | ⟨1, _⟩ =>
    unfold DotDims.lhsIdx
    rw [dif_neg (by rw [hlb]; exact List.not_mem_nil), dif_pos (by rw [hln]; exact List.mem_singleton.mpr rfl)]
    simp only [Fin.val_cast]
    exact (ix2_val_of_eq p o _ _).1 (by simp [hlb, hln])

/-- The right operand's index at result `(p, o)` and contraction coordinate `k` is `(k, o)`. -/
theorem rhsIdx_eq (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (p : Fin M) (o : Fin N) (k : Fin K) :
    d.rhsIdx (ix2 p o) ((contrEquiv1 d K (contr_rank d hlc) (contr_size d hlc)).symm k) = ix2 k o := by
  have hk := contrEquiv1_symm_val d K (contr_rank d hlc) (contr_size d hlc) k
  funext a
  apply Fin.ext
  match a with
  | ⟨0, _⟩ => exact (d.rhsIdx_val_of_single hrc _ _).trans hk
  | ⟨1, _⟩ =>
    unfold DotDims.rhsIdx
    rw [dif_neg (by rw [hrb]; exact List.not_mem_nil), dif_pos (by rw [hrn]; exact List.mem_singleton.mpr rfl)]
    simp only [Fin.val_cast]
    exact (ix2_val_of_eq p o _ _).2 (by simp [hlb, hln, hrn])

/-- A product contracting both first axes, from the zero accumulator, read at `(p, o)`: `∑ k, l (k, p) * r (k, o)`. -/
theorem matmul_columns_apply {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (l : FVec Ideal ⟨2, ![K, M]⟩ φ₁) (r : FVec Ideal ⟨2, ![K, N]⟩ φ₂)
    (p : Fin M) (o : Fin N) :
    FloatOps.matmul d prec l r (constant (F := Ideal) ⟨2, ![M, N]⟩ .f32 0x00000000#32) (ix2 p o)
      = ∑ k : Fin K, l (ix2 k p) * r (ix2 k o) := by
  rw [Ideal.matmul_constant_zero_apply,
    ← Equiv.sum_comp (contrEquiv1 d K (contr_rank d hlc) (contr_size d hlc)).symm]
  refine Finset.sum_congr rfl fun k _ => ?_
  rw [lhsIdx_eq d hlc hln hlb p o k, rhsIdx_eq d hlc hrc hln hrn hlb hrb p o k]

end Cert.MatmulColumns

end
-- ==== Proof.LibColumnSums.lean ====
/-
  Sums along the FIRST axis of a matrix, and a middle unit axis dropped, each read at an index given by its
  coordinates.

  A sum along the first axis of a matrix [a, b], read at the column q, ranges over the entries (k, q) of that column:
  the reduced index q has its row coordinate k put back. It is the counterpart, for the other axis, of a row sum
  read at a row.

  An array [a, 1, b] and the matrix [a, b] hold the same entries in the same row-major order: the entry (i, j) of the
  matrix is the entry (i, 0, j) of the array, the unit coordinate contributing nothing to the position i * b + j.
  General in the extents, and the cast in the element type.
-/
import Idealize.ShloMosaic.Lib.Pipeline.Value
import Idealize.ShloMosaic.Lib.ValueIdx
import Idealize.ShloMosaic.PureOps.Ideal.Laws

namespace Cert.ColumnSums

open Idealize.ShloMosaic Idealize.ShloMosaic.ValueIdx

variable {α : Type}

/-! ## The reduced index with the row coordinate put back -/

/-- The index of a matrix [a, b] whose column coordinate is the reduced index's and whose row coordinate is k. -/
theorem lift_rows {a b : ℕ} (h : (⟨2, ![a, b]⟩ : Shape).Reduces [0] ⟨1, ![b]⟩) (q : Fin b)
    (k : Fin ((⟨2, ![a, b]⟩ : Shape).size 0)) : h.lift (ix1 q) k = ix2 (⟨k.val, k.isLt⟩ : Fin a) q := by
  funext c; apply Fin.ext
  fin_cases c <;> rfl

/-! ## Sums along the first axis (an f32 sum over the rows from the zero accumulator) -/

/-- Along the rows of [a, b], at column q: the sum over k of the entries (k, q). -/
theorem sum_rows {a b : ℕ} (src : FVec Ideal ⟨2, ![a, b]⟩ .f32) (h : (⟨2, ![a, b]⟩ : Shape).Reduces [0] ⟨1, ![b]⟩) (q : Fin b) :
    multiReduction .add [0] ⟨1, ![b]⟩ src 0x00000000#32 h (.inl rfl) rfl (ix1 q) = ∑ k : Fin a, src (ix2 k q) :=
  (Ideal.multiReduction_add_single src 0x00000000#32 h (.inl rfl) rfl (ix1 q)).trans
    (Finset.sum_congr rfl fun k _ => congrArg src (lift_rows h q k))

/-! ## A middle unit axis dropped -/

/-- [a, 1, b] cast to [a, b] reads, at (i, j), the operand at (i, 0, j): both indices have row-major position
    i * b + j. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Cert.ColumnSums
-- ==== Proof.KernelPayload.lean ====
/-
  The kernel's arithmetic at one grid point, read at an index, on the extended reals.

  The value stored at a grid point is computed from an adjacency block `a` of shape [1, 512, 512], a feature block
  `xb` of shape [1, 512, 128] and the weight matrix `w` of shape [128, 128]. With the leading unit axes dropped and
  the format changes being the identity on the extended reals, the first product contracts the first axis of both
  operands, so its entry (j, f) is the sum over i of a (0, i, j) * xb (0, i, f): the transposed adjacency applied
  to the features. The second product is the plain one, entry (j, g) being the sum over f of that aggregated entry
  times w (f, g). The positive part is taken entrywise (the maximum with the zero word, which is 0), the rows are
  summed along the first axis from the zero accumulator, the result is scaled entrywise by the extended real the
  word 0x3B000000 encodes, and the vector is laid out as a one-row matrix. Read at (0, g) this is

    (∑ j, max (∑ f, (∑ i, a (0, i, j) * xb (0, i, f)) * w (f, g)) 0) * ofBits 0x3B000000.
-/
import proofs.«135903_g37177236914935_cont_8to1_b_467_17_alg».proof.Proof.Gen.KernelIdeal.Skeleton
import proofs.«135903_g37177236914935_cont_8to1_b_467_17_alg».proof.Proof.Spec
import proofs.«135903_g37177236914935_cont_8to1_b_467_17_alg».proof.Proof.LibMatmulPlain
import proofs.«135903_g37177236914935_cont_8to1_b_467_17_alg».proof.Proof.LibMatmulColumns
import proofs.«135903_g37177236914935_cont_8to1_b_467_17_alg».proof.Proof.LibColumnSums
import Idealize.ShloMosaic.Lib.ValueLayout
import Idealize.ShloMosaic.Lib.ValueIdx
import Idealize.ShloMosaic.PureOps.Ideal.Laws

noncomputable section

open scoped BigOperators

namespace Cert.KernelPayload

open Idealize.ShloMosaic Idealize.ShloMosaic.ValueIdx Cert.KernelIdeal

/-- The stored value at column `g`: the node sum of the positive parts of the twice-multiplied entries, scaled by
    the word of 2⁻⁹. Each layer is read at its index in turn: the one-row layout, the entrywise product with the
    broadcast scale, the column sum along the first axis, the entrywise maximum with the broadcast zero, the plain
    product, the product contracting both first axes, and the two casts that drop the leading unit axis. -/
theorem pay_apply (a : Vec Ideal S1x512x512 .f32) (xb : Vec Ideal S1x512x128 .f32) (w : Vec Ideal S128x128 .f32) (g : Fin 128) :
    Cert.KernelIdeal.Gen.k0_pay1 (F := Ideal) a xb w (ix2 (0 : Fin 1) g)
      = (∑ j : Fin 512, max (∑ f : Fin 128, (∑ i : Fin 512, a (ix3 (0 : Fin 1) i j) * xb (ix3 (0 : Fin 1) i f)) * w (ix2 f g)) 0) * Ideal.ofBits .f32 0x3B000000#32 := by
  unfold Cert.KernelIdeal.Gen.k0_pay1
  refine (shapeCast_a_1a_apply _ _ 0 g).trans ?_
  rw [mulf_apply]
  refine congrArg (fun t => t * Ideal.ofBits .f32 0x3B000000#32) ?_
  refine (Cert.ColumnSums.sum_rows _ _ g).trans ?_
  refine Finset.sum_congr rfl fun j _ => ?_
  rw [maximumf_apply]
  refine congrArg₂ max ?_ Ideal.ofBits_zero_f32
  refine (Cert.MatmulPlain.matmul_plain_apply dot_S512x128_S128x128_S512x128_1_0_0_1_n_n rfl rfl rfl rfl rfl rfl none _ w j g).trans ?_
  refine Finset.sum_congr rfl fun f _ => ?_
  refine congrArg (fun t => t * w (ix2 f g)) ?_
  refine (Cert.MatmulColumns.matmul_columns_apply dot_S512x512_S512x128_S512x128_0_0_1_1_n_n rfl rfl rfl rfl rfl rfl none _ _ j f).trans ?_
  refine Finset.sum_congr rfl fun i _ => ?_
  rw [truncf_apply, truncf_apply, shapeCast_1ab_ab_apply, shapeCast_1ab_ab_apply]

end Cert.KernelPayload

end
-- ==== Proof.KernelPoint.lean ====
/-
  The kernel's payload at a grid point is the specification's row.

  The grid has two points, and point `t` works on batch element `t`: the feature window's block there is the slab
  `(t, ·, ·)` of the feature array, the adjacency window's block the slab `(t, ·, ·)` of the adjacency array, and
  the weight window's one block is the whole weight matrix. A block's coordinate in its array is the block's index
  times the block's extent plus the coordinate inside the block; the index maps are decided once over the grid.
  With the three blocks read this way, the payload's triple sum at column `g` is the specification's pooled output
  at `(t, g)`.
-/
import proofs.«135903_g37177236914935_cont_8to1_b_467_17_alg».proof.Proof.Gen.KernelIdeal.Frame
import proofs.«135903_g37177236914935_cont_8to1_b_467_17_alg».proof.Proof.KernelPayload
import proofs.«135903_g37177236914935_cont_8to1_b_467_17_alg».proof.Proof.Spec
import Idealize.ShloMosaic.Lib.ValueIdx

set_option maxRecDepth 16384

noncomputable section

open scoped BigOperators

namespace Cert.KernelPoint

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ)

/-- The batch element a grid point works on: the point's own number. -/
def batch (t : Fin cfg0.N) : Fin 2 := ⟨t.val, Nat.lt_of_lt_of_eq t.isLt N_0⟩

/-- The printed index maps, decided once over the grid: at point `t` the feature window and the adjacency window
    sit at block `(t, 0, 0)`, the weight window at block `(0, 0)`. -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0 :=
  (by decide +kernel : ∀ t : Fin grid0.N, _)

/-- The feature window's block at point `t`, read at `(0, i, f)`, is the feature array at `(t, i, f)`: a block's
    coordinate is its index times the block's extent plus the coordinate inside the block. -/
theorem block0_apply (c : Dev nD) (t : Fin cfg0.N) (i : Fin 512) (f : Fin 128) :
    iblk (F := Ideal) m c 0 t (ix3 (0 : Fin 1) i f) = m ((c.tc : Thread nD τ).loc main_arg0) (ix3 (batch t) i f) := by
  unfold iblk
  rw [View.read_apply]
  show V m c main_arg0 (((cfg0.win 0).blk t).view.emb (ix3 (0 : Fin 1) i f)) = V m c main_arg0 (ix3 (batch t) i f)
  refine congrArg _ ?_
  obtain ⟨e0, e1, e2, -⟩ := index_facts t
  funext a; apply Fin.ext
  match a with
  | ⟨0, _⟩ =>
    show win0_0.index t (0 : Fin 3) * 1 + 1 * 0 = t.val
    omega
  | ⟨1, _⟩ =>
    show win0_0.index t (1 : Fin 3) * 512 + 1 * i.val = i.val
    omega
  | ⟨2, _⟩ =>
    show win0_0.index t (2 : Fin 3) * 128 + 1 * f.val = f.val
    omega

/-- The adjacency window's block at point `t`, read at `(0, i, j)`, is the adjacency array at `(t, i, j)`. -/
theorem block1_apply (c : Dev nD) (t : Fin cfg0.N) (i : Fin 512) (j : Fin 512) :
    iblk (F := Ideal) m c 1 t (ix3 (0 : Fin 1) i j) = m ((c.tc : Thread nD τ).loc main_arg1) (ix3 (batch t) i j) := by
  unfold iblk
  rw [View.read_apply]
  show V m c main_arg1 (((cfg0.win 1).blk t).view.emb (ix3 (0 : Fin 1) i j)) = V m c main_arg1 (ix3 (batch t) i j)
  refine congrArg _ ?_
  obtain ⟨-, -, -, e0, e1, e2, -⟩ := index_facts t
  funext a; apply Fin.ext
  match a with
  | ⟨0, _⟩ =>
    show win0_1.index t (0 : Fin 3) * 1 + 1 * 0 = t.val
    omega
  | ⟨1, _⟩ =>
    show win0_1.index t (1 : Fin 3) * 512 + 1 * i.val = i.val
    omega
  | ⟨2, _⟩ =>
    show win0_1.index t (2 : Fin 3) * 512 + 1 * j.val = j.val
    omega

/-- The weight window's one block is the whole weight matrix, at every point. -/
theorem block2_apply (c : Dev nD) (t : Fin cfg0.N) (f : Fin 128) (g : Fin 128) :
    iblk (F := Ideal) m c 2 t (ix2 f g) = m ((c.tc : Thread nD τ).loc main_arg2) (ix2 f g) := by
  unfold iblk
  rw [View.read_apply]
  show V m c main_arg2 (((cfg0.win 2).blk t).view.emb (ix2 f g)) = V m c main_arg2 (ix2 f g)
  refine congrArg _ ?_
  obtain ⟨-, -, -, -, -, -, e0, e1⟩ := index_facts t
  funext a; apply Fin.ext
  match a with
  | ⟨0, _⟩ =>
    show win0_2.index t (0 : Fin 2) * 128 + 1 * f.val = f.val
    omega
  | ⟨1, _⟩ =>
    show win0_2.index t (1 : Fin 2) * 128 + 1 * g.val = g.val
    omega

/-- The specification's pooled output at `(b, g)`, written out: the triple sum scaled by the word of 2⁻⁹. -/
theorem pooled_apply (x : (⟨3, ![2, 512, 128]⟩ : Shape).Idx → EReal) (adj : (⟨3, ![2, 512, 512]⟩ : Shape).Idx → EReal)
    (W : (⟨2, ![128, 128]⟩ : Shape).Idx → EReal) (b : Fin 2) (g : Fin 128) :
    Cert.Spec.pooled x adj W (ix2 b g)
      = (∑ j : Fin 512, max (∑ f : Fin 128, (∑ i : Fin 512, adj (ix3 b i j) * x (ix3 b i f)) * W (ix2 f g)) 0)
          * Ideal.ofBits .f32 0x3B000000#32 := rfl

/-- THE POINT'S PAYLOAD IS THE SPECIFICATION'S ROW: what point `t` stores at column `g`, computed from the three
    windows' blocks there, is the pooled output at `(t, g)` of the three argument arrays. The payload read at its
    index is the triple sum over the blocks; each block entry is the array entry of batch element `t`; and that is
    the specification unfolded. -/
theorem point_eq (c : Dev nD) (t : Fin cfg0.N) (g : Fin 128) :
    k0_pay1 (F := Ideal) (iblk m c 1 t) (iblk m c 0 t) (iblk m c 2 t) (ix2 (0 : Fin 1) g)
      = Cert.Spec.pooled (m ((c.tc : Thread nD τ).loc main_arg0)) (m ((c.tc : Thread nD τ).loc main_arg1))
          (m ((c.tc : Thread nD τ).loc main_arg2)) (ix2 (batch t) g) := by
  refine (Cert.KernelPayload.pay_apply (iblk m c 1 t) (iblk m c 0 t) (iblk m c 2 t) g).trans ?_
  refine Eq.trans ?_ (pooled_apply (m ((c.tc : Thread nD τ).loc main_arg0)) (m ((c.tc : Thread nD τ).loc main_arg1))
    (m ((c.tc : Thread nD τ).loc main_arg2)) (batch t) g).symm
  refine congrArg (fun s : EReal => s * Ideal.ofBits .f32 0x3B000000#32) ?_
  refine Finset.sum_congr rfl fun j _ => ?_
  refine congrArg (fun s : EReal => max s 0) ?_
  refine Finset.sum_congr rfl fun f _ => ?_
  refine congrArg₂ (fun p q : EReal => p * q) ?_ (block2_apply m c t f g)
  refine Finset.sum_congr rfl fun i _ => ?_
  exact congrArg₂ (fun p q : EReal => p * q) (block1_apply m c t i j) (block0_apply m c t i f)

end Cert.KernelPoint

end
-- ==== Proof.KernelValue.lean ====
/-
  The idealized kernel's run, with its result named.

  The run leaves the output array at contents the relational proof data allow; those are determined: row `b`, lane `g`
  holds the payload of grid point `b` at lane `g`, and that payload is the specification's pooled output at `(b, g)`.
-/
import proofs.«135903_g37177236914935_cont_8to1_b_467_17_alg».proof.Proof.KernelIdealBody
import proofs.«135903_g37177236914935_cont_8to1_b_467_17_alg».proof.Proof.KernelPoint

set_option maxRecDepth 16384

noncomputable section

namespace Cert.KernelValue

open Idealize.ShloMosaic Idealize.ShloMosaic.ValueIdx Idealize.ShloMosaic.TcCoe Idealize.SL.Sem
open Cert.KernelIdeal Cert.KernelIdeal.Gen
open Idealize.ShloMosaic.Pipeline (RDat)

variable (m : (ℓ : Loc nD τ sig) → Buf (Elt Ideal) ℓ) (ρ : Dev nD → PrngReg)

/-- The last grid point works on batch element 1, the first on batch element 0. -/
theorem batch_last : Cert.KernelPoint.batch Cert.KernelIdeal.Body.tLast = (1 : Fin 2) := rfl
theorem batch_first : Cert.KernelPoint.batch Cert.KernelIdeal.Body.tFirst = (0 : Fin 2) := rfl

/-- Contents the output array may hold after every write-back are the specification's pooled output of the argument
    arrays. -/
theorem out_eq (c : Dev nD) (Fm : Buf (Elt Ideal) ((cfg0.win 3).arr.view.loc (c.tc : Thread nD τ)))
    (h : (Cert.KernelIdeal.Body.rdat m c).ArrAt 3 cfg0.N Fm) :
    Fm = Cert.Spec.pooled (m ((c.tc : Thread nD τ).loc main_arg0)) (m ((c.tc : Thread nD τ).loc main_arg1)) (m ((c.tc : Thread nD τ).loc main_arg2)) := by
  refine funext fun (o : S2x128.Idx) => ?_
  obtain ⟨b, g, rfl⟩ : ∃ (b : Fin 2) (g : Fin 128), o = ix2 b g := ⟨o 0, o 1, eq_ix2 o⟩
  rw [Cert.KernelIdeal.Body.final_out_apply m c Fm h b g]
  by_cases hb : b.val = 1
  · rw [if_pos hb]
    have e : b = (1 : Fin 2) := Fin.ext hb
    subst e
    unfold Cert.KernelIdeal.Body.payAt
    rw [Cert.KernelPoint.point_eq, batch_last]
  · rw [if_neg hb]
    have e : b = (0 : Fin 2) := Fin.ext (by have := b.isLt; show b.val = 0; omega)
    subst e
    unfold Cert.KernelIdeal.Body.payAt
    rw [Cert.KernelPoint.point_eq, batch_first]

/-- Every weakly fair execution of the idealized kernel terminates with the result array at the specification's pooled
    output of the argument arrays, and the argument arrays unchanged. -/
theorem run : θ_run (defs (F := Ideal)) (onTc (τ := τ) (main (F := Ideal))) ⟨m, fun _ => 0, ρ⟩ (fun r => ∀ c : Dev nD,
      r.2.mem ((c.tc : Thread nD τ).loc main_v0) = Cert.Spec.pooled (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨out_eq m c _ ((h c).1 3),
       Eq.mp (congrFun ((Cert.KernelIdeal.Body.rdat m c).ArrAt_in 0 rfl _) _) ((h c).1 0),
       Eq.mp (congrFun ((Cert.KernelIdeal.Body.rdat m c).ArrAt_in 1 rfl _) _) ((h c).1 1),
       Eq.mp (congrFun ((Cert.KernelIdeal.Body.rdat m c).ArrAt_in 2 rfl _) _) ((h c).1 2)⟩)
    (Cert.KernelIdeal.Body.run_main m ρ)

end Cert.KernelValue

end
-- ==== Proof.RefScatter.lean ====
/-
  A gather of rows and a scatter-add of rows, read at an index on the extended reals.

  A gather with one start index per result row copies, into result row `e`, the operand row that index names; a
  scatter-add with one scatter index per update row adds update row `e` onto the operand row that index names. When
  the index array is given in closed form `e ↦ t e` (each `t e` inside the operand), element `(e, f)` of the gather is
  the operand's `(t e, f)`, and element `(n, f)` of the scatter-add is the operand's plus the sum of the updates
  `(e, f)` over the rows `e` with `t e = n`. For the two index arrays of the program — the target node of an edge,
  `(e / 512²)·512 + e % 512`, and the batch element of a node, `n / 512` — those rows are listed: 512 edges per node,
  512 nodes per batch element.
-/
import proofs.«135903_g37177236914935_cont_8to1_b_467_17_alg».proof.ReferenceIdeal
import Idealize.ShloMosaic.Lib.ValueIdx
import Idealize.ShloMosaic.PureOps.Ideal.Laws

noncomputable section

namespace Cert.RefScatter

open Idealize.ShloMosaic Idealize.ShloMosaic.ValueIdx

/-- The dimension numbers of a scatter of rows: operand `[N, C]`, scatter indices `[E, 1]`, updates `[E, C]`;
    update row `e` goes to the operand row its index names. -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

theorem rowScatter_siIdx {N E C : Nat} (wf : ScatterDims.WF ⟨2, ![N, C]⟩ ⟨2, ![E, 1]⟩ ⟨2, ![E, C]⟩ [1] [0] [0] 1)
    (e : Fin E) (f : Fin C) :
    (rowScatter N E C wf).siIdx (ix2 e f) ⟨List.idxOf (0 : Fin 2) (rowScatter N E C wf).scatterDimsToOperandDims,
      List.idxOf_lt_length_iff.2 (List.mem_singleton.mpr rfl)⟩ = ix2 e (0 : Fin 1) := by
  funext b; refine Fin.ext ?_
  match b with
  | ⟨0, _⟩ => rfl
  | ⟨1, _⟩ => rfl

theorem rowScatter_start0 {N E C : Nat} (wf : ScatterDims.WF ⟨2, ![N, C]⟩ ⟨2, ![E, 1]⟩ ⟨2, ![E, C]⟩ [1] [0] [0] 1)
    (idx : IVec ⟨2, ![E, 1]⟩ 32) (e : Fin E) (f : Fin C) :
    (rowScatter N E C wf).start (ix2 e f) idx 0 = (idx (ix2 e (0 : Fin 1))).toInt := by
  unfold ScatterDims.start
  rw [dif_pos (show (0 : Fin 2) ∈ (rowScatter N E C wf).scatterDimsToOperandDims from List.mem_singleton.mpr rfl)]
  rw [rowScatter_siIdx]

theorem rowScatter_start1 {N E C : Nat} (wf : ScatterDims.WF ⟨2, ![N, C]⟩ ⟨2, ![E, 1]⟩ ⟨2, ![E, C]⟩ [1] [0] [0] 1)
    (idx : IVec ⟨2, ![E, 1]⟩ 32) (j : (⟨2, ![E, C]⟩ : Shape).Idx) :
    (rowScatter N E C wf).start j idx 1 = 0 := by
  unfold ScatterDims.start
  rw [dif_neg (show (1 : Fin 2) ∉ (rowScatter N E C wf).scatterDimsToOperandDims from fun h => absurd (List.mem_singleton.mp h) (show (1 : Fin 2) ≠ 0 by decide))]

theorem rowScatter_window0 {N E C : Nat} (wf : ScatterDims.WF ⟨2, ![N, C]⟩ ⟨2, ![E, 1]⟩ ⟨2, ![E, C]⟩ [1] [0] [0] 1)
    (j : (⟨2, ![E, C]⟩ : Shape).Idx) :
    (rowScatter N E C wf).window j 0 = 0 := by
  unfold ScatterDims.window
  rw [dif_neg (show (0 : Fin 2) ∉ (rowScatter N E C wf).sKept by simp [ScatterDims.sKept, Shape.kept, List.mem_filter])]

theorem rowScatter_window1 {N E C : Nat} (wf : ScatterDims.WF ⟨2, ![N, C]⟩ ⟨2, ![E, 1]⟩ ⟨2, ![E, C]⟩ [1] [0] [0] 1)
    (e : Fin E) (f : Fin C) :
    (rowScatter N E C wf).window (ix2 e f) 1 = f.val := by
  unfold ScatterDims.window
  rw [dif_pos (show (1 : Fin 2) ∈ (rowScatter N E C wf).sKept by simp [ScatterDims.sKept, Shape.kept, List.mem_filter])]
  rfl

/-- A 32-bit word holding a natural below 2³¹ reads, signed, as that natural. -/
theorem toInt_ofNat32 (t : Nat) (ht : t < 2147483648) : (BitVec.ofNat 32 t).toInt = (t : Int) := by
  rw [BitVec.toInt_eq_toNat_cond, BitVec.toNat_ofNat]
  have h : t % 2 ^ 32 = t := Nat.mod_eq_of_lt (by omega)
  rw [h]; split <;> omega

theorem ix2_inj {n0 n1 : Nat} {a a' : Fin n0} {b b' : Fin n1} (h : ix2 a b = ix2 a' b') : a = a' ∧ b = b' :=
  ⟨congrFun h 0, congrFun h 1⟩

/-- THE RESULT INDEX of update element `(e, f)`: row `t` (the row its scatter index names), column `f`. -/
theorem rowScatter_resultIdx {N E C : Nat} (wf : ScatterDims.WF ⟨2, ![N, C]⟩ ⟨2, ![E, 1]⟩ ⟨2, ![E, C]⟩ [1] [0] [0] 1)
    (hN : N ≤ 2147483648) (idx : IVec ⟨2, ![E, 1]⟩ 32) (e : Fin E) (f : Fin C) (t : Nat) (ht : t < N)
    (hidx : idx (ix2 e (0 : Fin 1)) = BitVec.ofNat 32 t) :
    (rowScatter N E C wf).resultIdx? (ix2 e f) idx = some (ix2 ⟨t, ht⟩ f) := by
  have h00 : (rowScatter N E C wf).start (ix2 e f) idx 0 + (rowScatter N E C wf).window (ix2 e f) 0 = (t : Int) := by
    rw [rowScatter_start0, rowScatter_window0, hidx, toInt_ofNat32 t (by omega)]; simp
  have h11 : (rowScatter N E C wf).start (ix2 e f) idx 1 + (rowScatter N E C wf).window (ix2 e f) 1 = (f.val : Int) := by
    rw [rowScatter_start1, rowScatter_window1]; simp
  unfold ScatterDims.resultIdx?
  have hall : ∀ a : Fin 2, 0 ≤ (rowScatter N E C wf).start (ix2 e f) idx a + (rowScatter N E C wf).window (ix2 e f) a ∧
      (rowScatter N E C wf).start (ix2 e f) idx a + (rowScatter N E C wf).window (ix2 e f) a
        < ((⟨2, ![N, C]⟩ : Shape).size a : Int) := by
    intro a
    match a with
    | ⟨0, _⟩ =>
      show 0 ≤ (rowScatter N E C wf).start (ix2 e f) idx 0 + (rowScatter N E C wf).window (ix2 e f) 0 ∧
        (rowScatter N E C wf).start (ix2 e f) idx 0 + (rowScatter N E C wf).window (ix2 e f) 0 < (N : Int)
      rw [h00]; omega
    | ⟨1, _⟩ =>
      show 0 ≤ (rowScatter N E C wf).start (ix2 e f) idx 1 + (rowScatter N E C wf).window (ix2 e f) 1 ∧
        (rowScatter N E C wf).start (ix2 e f) idx 1 + (rowScatter N E C wf).window (ix2 e f) 1 < (C : Int)
      rw [h11]; have := f.isLt; omega
  rw [dif_pos hall]
  congr 1
  funext a; refine Fin.ext ?_
  match a with
  | ⟨0, _⟩ =>
    show ((rowScatter N E C wf).start (ix2 e f) idx 0 + (rowScatter N E C wf).window (ix2 e f) 0).toNat = t
    rw [h00]; simp
  | ⟨1, _⟩ =>
    show ((rowScatter N E C wf).start (ix2 e f) idx 1 + (rowScatter N E C wf).window (ix2 e f) 1).toNat = f.val
    rw [h11]; simp

/-- Update element `j` lands on `(n, f)` exactly when its row's index names `n` and its column is `f`. -/
theorem rowScatter_lands {N E C : Nat} (wf : ScatterDims.WF ⟨2, ![N, C]⟩ ⟨2, ![E, 1]⟩ ⟨2, ![E, C]⟩ [1] [0] [0] 1)
    (hN : N ≤ 2147483648) (idx : IVec ⟨2, ![E, 1]⟩ 32)
    (t : Fin E → Nat) (ht : ∀ e, t e < N) (hidx : ∀ e, idx (ix2 e (0 : Fin 1)) = BitVec.ofNat 32 (t e))
    (n : Fin N) (f : Fin C) (e : Fin E) (f' : Fin C) :
    (rowScatter N E C wf).resultIdx? (ix2 e f') idx = some (ix2 n f) ↔ t e = n.val ∧ f' = f := by
  rw [rowScatter_resultIdx wf hN idx e f' (t e) (ht _) (hidx _)]
  constructor
  · intro h
    have := ix2_inj (Option.some.inj h)
    exact ⟨congrArg Fin.val this.1, this.2⟩
  · rintro ⟨h1, rfl⟩
    have : (⟨t e, ht e⟩ : Fin N) = n := Fin.ext h1
    rw [this]

/-- THE ROW SCATTER-ADD READ AT `(n, f)`: the operand's element plus the updates `(e, f)` of the rows `e` whose
    index names row `n`. -/
theorem rowScatter_apply {N E C : Nat} (wf : ScatterDims.WF ⟨2, ![N, C]⟩ ⟨2, ![E, 1]⟩ ⟨2, ![E, C]⟩ [1] [0] [0] 1)
    (hN : N ≤ 2147483648) (init : (⟨2, ![N, C]⟩ : Shape).Idx → EReal) (idx : IVec ⟨2, ![E, 1]⟩ 32)
    (t : Fin E → Nat) (ht : ∀ e, t e < N) (hidx : ∀ e, idx (ix2 e (0 : Fin 1)) = BitVec.ofNat 32 (t e))
    (upd : (⟨2, ![E, C]⟩ : Shape).Idx → EReal) (n : Fin N) (f : Fin C) :
    Ideal.hostScatterAdd (rowScatter N E C wf) init idx upd (ix2 n f)
      = init (ix2 n f) + ∑ e ∈ Finset.univ.filter (fun e : Fin E => t e = n.val), upd (ix2 e f) := by
  unfold Ideal.hostScatterAdd
  congr 1
  refine Finset.sum_nbij' (fun j => (j 0 : Fin E)) (fun e => ix2 e f) ?_ ?_ ?_ ?_ ?_
  · intro j hj
    obtain ⟨e, f', rfl⟩ : ∃ (e : Fin E) (f' : Fin C), j = ix2 e f' := ⟨j 0, j 1, eq_ix2 j⟩
    have h := (rowScatter_lands wf hN idx t ht hidx n f e f').1 (Finset.mem_filter.1 hj).2
    exact Finset.mem_filter.2 ⟨Finset.mem_univ _, h.1⟩
  · intro e he
    exact Finset.mem_filter.2 ⟨Finset.mem_univ _,
      (rowScatter_lands wf hN idx t ht hidx n f e f).2 ⟨(Finset.mem_filter.1 he).2, rfl⟩⟩
  · intro j hj
    obtain ⟨e, f', rfl⟩ : ∃ (e : Fin E) (f' : Fin C), j = ix2 e f' := ⟨j 0, j 1, eq_ix2 j⟩
    have h := (rowScatter_lands wf hN idx t ht hidx n f e f').1 (Finset.mem_filter.1 hj).2
    show ix2 e f = ix2 e f'
    rw [h.2]
  · intro e _; rfl
  · intro j hj
    obtain ⟨e, f', rfl⟩ : ∃ (e : Fin E) (f' : Fin C), j = ix2 e f' := ⟨j 0, j 1, eq_ix2 j⟩
    have h := (rowScatter_lands wf hN idx t ht hidx n f e f').1 (Finset.mem_filter.1 hj).2
    show upd (ix2 e f') = upd (ix2 e f)
    rw [h.2]

/-- The dimension numbers of a gather of rows: operand `[N, C]`, start indices `[E, 1]`, result `[E, C]`; result row
    `e` is the operand row its start index names. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem rowGather_siIdx {N E C : Nat}
    (wf : GatherDims.WF ⟨2, ![N, C]⟩ ⟨2, ![E, 1]⟩ ⟨2, ![E, C]⟩ [1] [0] [] [0] [] 1 ![1, C]) (e : Fin E) (f : Fin C) :
    (rowGather N E C wf).siIdx (ix2 e f) ⟨List.idxOf (0 : Fin 2) (rowGather N E C wf).startIndexMap,
      List.idxOf_lt_length_iff.2 (List.mem_singleton.mpr rfl)⟩ = ix2 e (0 : Fin 1) := by
  funext b; refine Fin.ext ?_
  match b with
  | ⟨0, _⟩ => rfl
  | ⟨1, _⟩ => rfl

/-- THE ROW GATHER READ AT `(e, f)`: the operand at row `s` (the row the start index names), column `f`. -/
theorem rowGather_apply {α : Type} {N E C : Nat}
    (wf : GatherDims.WF ⟨2, ![N, C]⟩ ⟨2, ![E, 1]⟩ ⟨2, ![E, C]⟩ [1] [0] [] [0] [] 1 ![1, C])
    (hN : N ≤ 2147483648) (x : (⟨2, ![N, C]⟩ : Shape).Idx → α) (idx : IVec ⟨2, ![E, 1]⟩ 32) (e : Fin E) (f : Fin C)
    (s : Nat) (hs : s < N) (hidx : idx (ix2 e (0 : Fin 1)) = BitVec.ofNat 32 s) :
    Host.gather (rowGather N E C wf) x idx (ix2 e f) = x (ix2 ⟨s, hs⟩ f) := by
  unfold Host.gather
  congr 1
  funext a
  refine Fin.ext ?_
  match a with
  | ⟨0, _⟩ =>
    show (rowGather N E C wf).start (ix2 e f) idx 0 + (rowGather N E C wf).batchCoord (ix2 e f) 0
      + (rowGather N E C wf).offCoord (ix2 e f) 0 = s
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    rw [rowGather_siIdx, hidx, toInt_ofNat32 s (by omega)]
    show min (s : Int).toNat (N - 1) = s
    rw [Int.toNat_natCast]; omega
  | ⟨1, _⟩ =>
    show (rowGather N E C wf).start (ix2 e f) idx 1 + (rowGather N E C wf).batchCoord (ix2 e f) 1
      + (rowGather N E C wf).offCoord (ix2 e f) 1 = f.val
    rw [GatherDims.batchCoord_eq_zero _ _ _ List.not_mem_nil]
    unfold GatherDims.start
    rw [dif_neg (show (1 : Fin 2) ∉ (rowGather N E C wf).startIndexMap from
      fun h => absurd (List.mem_singleton.mp h) (show (1 : Fin 2) ≠ 0 by decide))]
    unfold GatherDims.offCoord
    rw [dif_pos (show (1 : Fin 2) ∈ (rowGather N E C wf).sKept by
      simp [GatherDims.sKept, Shape.kept, List.mem_filter])]
    simp only [Nat.zero_add]
    rfl

/-! ## The two re-indexings: which update rows land on a node, which nodes on a batch element -/

theorem node_lt (b : Fin 2) (j : Fin 512) : b.val * 512 + j.val < 1024 := by
  have := b.isLt; have := j.isLt; omega

theorem edge_lt (b : Fin 2) (i j : Fin 512) : b.val * 262144 + i.val * 512 + j.val < 524288 := by
  have := b.isLt; have := i.isLt; have := j.isLt; omega

/-- Edge `e = b·512² + i·512 + j` (source `i`, target `j`, batch element `b`) has target node `b·512 + j`: the edges
    landing on that node are the 512 edges `(b, i, j)`, one per source `i`. -/
theorem sum_edges_of_node {M : Type*} [AddCommMonoid M] (u : Fin 524288 → M) (b : Fin 2) (j : Fin 512) :
    ∑ e ∈ Finset.univ.filter (fun e : Fin 524288 => (e.val / 262144) * 512 + e.val % 512 = b.val * 512 + j.val), u e
      = ∑ i : Fin 512, u ⟨b.val * 262144 + i.val * 512 + j.val, edge_lt b i j⟩ := by
  have hb := b.isLt
  have hj := j.isLt
  refine Finset.sum_nbij' (fun e => (⟨e.val / 512 % 512, Nat.mod_lt _ (by decide)⟩ : Fin 512))
    (fun i => (⟨b.val * 262144 + i.val * 512 + j.val, edge_lt b i j⟩ : Fin 524288)) ?_ ?_ ?_ ?_ ?_
  · intro e _; exact Finset.mem_univ _
  · intro i _
    have hi := i.isLt
    refine Finset.mem_filter.2 ⟨Finset.mem_univ _, ?_⟩
    show (b.val * 262144 + i.val * 512 + j.val) / 262144 * 512 + (b.val * 262144 + i.val * 512 + j.val) % 512
      = b.val * 512 + j.val
    omega
  · intro e he
    have h := (Finset.mem_filter.1 he).2
    have hev := e.isLt
    refine Fin.ext ?_
    show b.val * 262144 + (e.val / 512 % 512) * 512 + j.val = e.val
    omega
  · intro i _
    have hi := i.isLt
    refine Fin.ext ?_
    show (b.val * 262144 + i.val * 512 + j.val) / 512 % 512 = i.val
    omega
  · intro e he
    have h := (Finset.mem_filter.1 he).2
    have hev := e.isLt
    congr 1
    refine Fin.ext ?_
    show e.val = b.val * 262144 + (e.val / 512 % 512) * 512 + j.val
    omega

/-- Node `n = b·512 + j` belongs to batch element `n / 512 = b`: the nodes of `b` are the 512 nodes `b·512 + j`. -/
theorem sum_nodes_of_batch {M : Type*} [AddCommMonoid M] (u : Fin 1024 → M) (b : Fin 2) :
    ∑ n ∈ Finset.univ.filter (fun n : Fin 1024 => n.val / 512 = b.val), u n
      = ∑ j : Fin 512, u ⟨b.val * 512 + j.val, node_lt b j⟩ := by
  have hb := b.isLt
  refine Finset.sum_nbij' (fun n => (⟨n.val % 512, Nat.mod_lt _ (by decide)⟩ : Fin 512))
    (fun j => (⟨b.val * 512 + j.val, node_lt b j⟩ : Fin 1024)) ?_ ?_ ?_ ?_ ?_
  · intro n _; exact Finset.mem_univ _
  · intro j _
    have hj := j.isLt
    refine Finset.mem_filter.2 ⟨Finset.mem_univ _, ?_⟩
    show (b.val * 512 + j.val) / 512 = b.val
    omega
  · intro n hn
    have h := (Finset.mem_filter.1 hn).2
    have hnv := n.isLt
    refine Fin.ext ?_
    show b.val * 512 + n.val % 512 = n.val
    omega
  · intro j _
    have hj := j.isLt
    refine Fin.ext ?_
    show (b.val * 512 + j.val) % 512 = j.val
    omega
  · intro n hn
    have h := (Finset.mem_filter.1 hn).2
    have hnv := n.isLt
    congr 1
    refine Fin.ext ?_
    show n.val = b.val * 512 + n.val % 512
    omega

/-! ## The reference's gather and its two scatter-adds, read at an index -/

section Records
open Cert.ReferenceIdeal
variable [Facts₀]

/-- (1) The gather of feature rows: row `e` of the result is row `s e` of the operand. -/
theorem gather_apply (x : FVec Ideal S1024x128 .f32) (idx : IVec S524288x1 32) (s : Fin 524288 → Nat)
    (hs : ∀ e, s e < 1024) (hidx : ∀ e, idx (ix2 e (0 : Fin 1)) = BitVec.ofNat 32 (s e)) (e : Fin 524288) (f : Fin 128) :
    Host.gather gather_S1024x128_S524288x1_S524288x128_1_0_n_n_0_1_1128 x idx (ix2 e f) = x (ix2 ⟨s e, hs e⟩ f) :=
  rowGather_apply Facts₀.gather_S1024x128_S524288x1_S524288x128_1_0_n_n_0_1_1128_wf (by decide) x idx e f (s e) (hs e)
    (hidx e)

/-- (2) The scatter-add of edge rows onto node rows: node row `n` receives the rows `e` with `t e = n`. -/
theorem scatter_nodes_apply (init : FVec Ideal S1024x128 .f32) (idx : IVec S524288x1 32) (t : Fin 524288 → Nat)
    (ht : ∀ e, t e < 1024) (hidx : ∀ e, idx (ix2 e (0 : Fin 1)) = BitVec.ofNat 32 (t e))
    (upd : FVec Ideal S524288x128 .f32) (n : Fin 1024) (f : Fin 128) :
    Host.scatterAdd (F := Ideal) scatter_S1024x128_S524288x1_S524288x128_1_0_0_1 init idx upd (ix2 n f)
      = init (ix2 n f) + ∑ e ∈ Finset.univ.filter (fun e : Fin 524288 => t e = n.val), upd (ix2 e f) :=
  rowScatter_apply Facts₀.scatter_S1024x128_S524288x1_S524288x128_1_0_0_1_wf (by decide) init idx t ht hidx upd n f

/-- (2') At the target-node indices `t e = (e / 512²)·512 + e % 512`: node `(b, j)` receives the 512 edge rows
    `(b, i, j)`. -/
theorem scatter_nodes_apply' (init : FVec Ideal S1024x128 .f32) (idx : IVec S524288x1 32)
    (hidx : ∀ e : Fin 524288, idx (ix2 e (0 : Fin 1)) = BitVec.ofNat 32 ((e.val / 262144) * 512 + e.val % 512))
    (upd : FVec Ideal S524288x128 .f32) (b : Fin 2) (j : Fin 512) (f : Fin 128) :
    Host.scatterAdd (F := Ideal) scatter_S1024x128_S524288x1_S524288x128_1_0_0_1 init idx upd
        (ix2 ⟨b.val * 512 + j.val, node_lt b j⟩ f)
      = init (ix2 ⟨b.val * 512 + j.val, node_lt b j⟩ f)
        + ∑ i : Fin 512, upd (ix2 ⟨b.val * 262144 + i.val * 512 + j.val, edge_lt b i j⟩ f) := by
  have h := scatter_nodes_apply init idx (fun e => (e.val / 262144) * 512 + e.val % 512)
    (fun e => by have := e.isLt; omega) hidx upd ⟨b.val * 512 + j.val, node_lt b j⟩ f
  refine h.trans ?_
  exact congrArg (fun z => init (ix2 ⟨b.val * 512 + j.val, node_lt b j⟩ f) + z)
    (sum_edges_of_node (fun e => upd (ix2 e f)) b j)

/-- (3) The scatter-add of node rows onto batch rows, at the indices `n / 512`: batch row `b` receives the 512 node
    rows `b·512 + j`. -/
theorem scatter_batch_apply (init : FVec Ideal S2x128 .f32) (idx : IVec S1024x1 32)
    (hidx : ∀ n : Fin 1024, idx (ix2 n (0 : Fin 1)) = BitVec.ofNat 32 (n.val / 512))
    (upd : FVec Ideal S1024x128 .f32) (b : Fin 2) (g : Fin 128) :
    Host.scatterAdd (F := Ideal) scatter_S2x128_S1024x1_S1024x128_1_0_0_1 init idx upd (ix2 b g)
      = init (ix2 b g) + ∑ j : Fin 512, upd (ix2 ⟨b.val * 512 + j.val, node_lt b j⟩ g) := by
  have h := rowScatter_apply Facts₀.scatter_S2x128_S1024x1_S1024x128_1_0_0_1_wf (by decide) init idx
    (fun n => n.val / 512) (fun n => by have := n.isLt; omega) hidx upd b g
  refine h.trans ?_
  exact congrArg (fun z => init (ix2 b g) + z) (sum_nodes_of_batch (fun n => upd (ix2 n g)) b)

end Records

end Cert.RefScatter

end
-- ==== Proof.RefIndices.lean ====
import proofs.«135903_g37177236914935_cont_8to1_b_467_17_alg».proof.Proof.Gen.ReferenceIdeal.Read

noncomputable section

namespace Cert.RefIndices

open Idealize.ShloMosaic Idealize.ShloMosaic.ValueIdx Cert.ReferenceIdeal Cert.ReferenceIdeal.Gen Cert.ReferenceIdeal.Read

/-! ## Words of small naturals -/

/-- The product of the words of two naturals is the word of their product. -/
theorem muli_ofNat (a b : Nat) : IntOp.muli (BitVec.ofNat 32 a) (BitVec.ofNat 32 b) = BitVec.ofNat 32 (a * b) := by
  unfold IntOp.muli; exact (BitVec.ofNat_mul _ _).symm

/-- The sum of the words of two naturals is the word of their sum. -/
theorem addi_ofNat (a b : Nat) : IntOp.addi (BitVec.ofNat 32 a) (BitVec.ofNat 32 b) = BitVec.ofNat 32 (a + b) := by
  unfold IntOp.addi; exact (BitVec.ofNat_add _ _).symm

/-- The word of a natural below 2³¹ is not negative as a signed word. -/
theorem slt_zero_ofNat (n : Nat) (h : n < 2147483648) : IntOp.cmpi .slt (BitVec.ofNat 32 n) 0#32 = 0#1 := by
  have hm : (BitVec.ofNat 32 n).slt 0#32 = false := by
    rw [BitVec.slt_zero_eq_msb, BitVec.msb_eq_decide, BitVec.toNat_ofNat]
    simp only [decide_eq_false_iff_not, not_le]
    omega
  show BitVec.ofBool ((BitVec.ofNat 32 n).slt 0#32) = 0#1
  rw [hm]; rfl

/-! ## The node-base word `b * 512` and the two index grids on `[2, 512, 512]` -/

theorem v3_apply (i : S2x1x1.Idx) : val_main_v3 (F := Ideal) i = BitVec.ofNat 32 ((i 0).val * 512) := by
  rw [val_main_v3_apply, val_main_v2_apply, val_main_v0_apply, val_main_v1_apply, val_main_c_apply]
  exact muli_ofNat _ 512

theorem v8_apply (i : S2x512x1.Idx) : val_main_v8 (F := Ideal) i = BitVec.ofNat 32 ((i 0).val * 512 + (i 1).val) := by
  rw [val_main_v8_apply, val_main_v6_apply, val_main_v7_apply, v3_apply, val_main_v5_apply, val_main_v4_apply]
  exact addi_ofNat _ _

theorem v15_apply (i : S2x1x512.Idx) : val_main_v15 (F := Ideal) i = BitVec.ofNat 32 ((i 0).val * 512 + (i 2).val) := by
  rw [val_main_v15_apply, val_main_v13_apply, val_main_v14_apply, v3_apply, val_main_v12_apply, val_main_v11_apply]
  exact addi_ofNat _ _

theorem v9_apply (i : S2x512x512.Idx) : val_main_v9 (F := Ideal) i = BitVec.ofNat 32 ((i 0).val * 512 + (i 1).val) := by
  rw [val_main_v9_apply, v8_apply]

theorem v16_apply (i : S2x512x512.Idx) : val_main_v16 (F := Ideal) i = BitVec.ofNat 32 ((i 0).val * 512 + (i 2).val) := by
  rw [val_main_v16_apply, v15_apply]

/-! ## The grids flattened to the edge list -/

theorem v10_apply (i : S524288.Idx) :
    val_main_v10 (F := Ideal) i = BitVec.ofNat 32 ((i 0).val / 262144 * 512 + (i 0).val / 512 % 512) := by
  rw [val_main_v10_apply, v9_apply]

theorem v17_apply (i : S524288.Idx) :
    val_main_v17 (F := Ideal) i = BitVec.ofNat 32 ((i 0).val / 262144 * 512 + (i 0).val % 512) := by
  rw [val_main_v17_apply, v16_apply]

theorem v19_apply (i : S1x524288.Idx) :
    val_main_v19 (F := Ideal) i = BitVec.ofNat 32 ((i 1).val / 262144 * 512 + (i 1).val / 512 % 512) := by
  rw [val_main_v19_apply, v10_apply]

theorem v20_apply (i : S1x524288.Idx) :
    val_main_v20 (F := Ideal) i = BitVec.ofNat 32 ((i 1).val / 262144 * 512 + (i 1).val % 512) := by
  rw [val_main_v20_apply, v17_apply]

/-! ## The two rows stacked, and each row sliced back out -/

/-- Row 0 of the stacked pair is the source row. -/
theorem v23_eq (i : S1x524288.Idx) : val_main_v23 (F := Ideal) i = val_main_v19 (F := Ideal) i := by
  rw [val_main_v23_apply]
  unfold val_main_v21
  exact concatenate_pair_apply_left 0 _ _ concatenates_S1x524288_S1x524288_S2x524288_d0 (idx_main_v23 i) rfl i
    (fun b => by
      match b with
      | ⟨0, _⟩ => rfl
      | ⟨1, _⟩ => rfl)

/-- Row 1 of the stacked pair is the target row. -/
theorem v35_eq (i : S1x524288.Idx) : val_main_v35 (F := Ideal) i = val_main_v20 (F := Ideal) i := by
  rw [val_main_v35_apply]
  unfold val_main_v21
  exact concatenate_pair_apply_right 0 _ _ concatenates_S1x524288_S1x524288_S2x524288_d0 (idx_main_v35 i) rfl rfl i
    (fun b hb => by
      match b with
      | ⟨0, _⟩ => exact absurd rfl hb
      | ⟨1, _⟩ => rfl)
    (by show (i 0).val + 1 = 1 + (i 0).val; omega)

/-! ## The gather's start indices: the source row, sliced out and guarded against negative words -/

theorem v24_apply (i : S524288.Idx) :
    val_main_v24 (F := Ideal) i = BitVec.ofNat 32 ((i 0).val / 262144 * 512 + (i 0).val / 512 % 512) := by
  have h0 : (i 0).val < 524288 := (i 0).isLt
  rw [val_main_v24_apply, v23_eq, v19_apply]
  show BitVec.ofNat 32 ((i 0).val % 524288 / 262144 * 512 + (i 0).val % 524288 / 512 % 512) = _
  rw [Nat.mod_eq_of_lt h0]

/-- A start index is below 1024, so the signed comparison with 0 fails and the select keeps the index. -/
theorem v29_apply (i : S524288.Idx) :
    val_main_v29 (F := Ideal) i = BitVec.ofNat 32 ((i 0).val / 262144 * 512 + (i 0).val / 512 % 512) := by
  have h0 : (i 0).val < 524288 := (i 0).isLt
  rw [val_main_v29_apply, val_main_v26_apply, val_main_v25_apply, val_main_c_0_apply, v24_apply,
    slt_zero_ofNat _ (by omega), select_zero]

/-- The gather's start index of edge `e = b * 262144 + i * 512 + j` is the source node `b * 512 + i`. -/
theorem src_apply (e : Fin 524288) :
    val_main_v30 (F := Ideal) (ix2 e (0 : Fin 1)) = BitVec.ofNat 32 ((e.val / 262144) * 512 + (e.val / 512) % 512) := by
  rw [val_main_v30_apply, v29_apply]

/-! ## The first scatter's indices: the target row -/

theorem v36_apply (i : S524288.Idx) :
    val_main_v36 (F := Ideal) i = BitVec.ofNat 32 ((i 0).val / 262144 * 512 + (i 0).val % 512) := by
  have h0 : (i 0).val < 524288 := (i 0).isLt
  rw [val_main_v36_apply, v35_eq, v20_apply]
  show BitVec.ofNat 32 ((i 0).val % 524288 / 262144 * 512 + (i 0).val % 524288 % 512) = _
  rw [Nat.mod_eq_of_lt h0]

/-- The first scatter's index of edge `e = b * 262144 + i * 512 + j` is the target node `b * 512 + j`. -/
theorem dst_apply (e : Fin 524288) :
    val_main_v38 (F := Ideal) (ix2 e (0 : Fin 1)) = BitVec.ofNat 32 ((e.val / 262144) * 512 + e.val % 512) := by
  rw [val_main_v38_apply, v36_apply]

/-! ## The second scatter's indices: the batch element of a node -/

/-- The second scatter's index of node `n = b * 512 + j` is its batch element `b`. -/
theorem batch_apply (n : Fin 1024) :
    val_main_v46 (F := Ideal) (ix2 n (0 : Fin 1)) = BitVec.ofNat 32 (n.val / 512) := by
  rw [val_main_v46_apply, val_main_v44_apply, val_main_v43_apply, val_main_v42_apply]

/-! ## The float layout steps -/

/-- The edge weight of edge `e = b * 262144 + i * 512 + j`, broadcast along the features, is `adj b i j`. -/
theorem weight_apply (x1 : (⟨S2x512x512, .f32⟩ : BufTy).Contents (Elt Ideal)) (e : Fin 524288) (f : Fin 128) :
    val_main_v33 (F := Ideal) x1 (ix2 e f)
      = x1 (ix3 (⟨e.val / 262144, by have := e.isLt; omega⟩ : Fin 2) (⟨(e.val / 512) % 512, by omega⟩ : Fin 512)
          (⟨e.val % 512, by omega⟩ : Fin 512)) := by
  rw [val_main_v33_apply, val_main_v32_apply, val_main_v18_apply]
  congr 1
  funext a
  match a with
  | ⟨0, _⟩ => rfl
  | ⟨1, _⟩ => rfl
  | ⟨2, _⟩ => rfl

/-- The features flattened to `[1024, 128]`: row `n = b * 512 + i` is `x b i`. -/
theorem xflat_apply (x0 : (⟨S2x512x128, .f32⟩ : BufTy).Contents (Elt Ideal)) (n : Fin 1024) (f : Fin 128) :
    val_main_v22 (F := Ideal) x0 (ix2 n f)
      = x0 (ix3 (⟨n.val / 512, by have := n.isLt; omega⟩ : Fin 2) (⟨n.val % 512, by omega⟩ : Fin 512) f) := by
  have hn : n.val < 1024 := n.isLt
  have hf : f.val < 128 := f.isLt
  rw [val_main_v22_apply]
  congr 1
  funext a
  match a with
  | ⟨0, _⟩ => exact Fin.ext (by show (n.val * 128 + f.val) / 65536 = n.val / 512; omega)
  | ⟨1, _⟩ => exact Fin.ext (by show (n.val * 128 + f.val) / 128 % 512 = n.val % 512; omega)
  | ⟨2, _⟩ => exact Fin.ext (by show (n.val * 128 + f.val) % 128 = f.val; omega)

/-! ## The constant fills -/

theorem v37_apply (i : S1024x128.Idx) : val_main_v37 (F := Ideal) i = (0 : EReal) := by
  rw [val_main_v37_apply, val_main_cst_apply]; exact Ideal.ofBits_zero_f32

theorem v45_apply (i : S2x128.Idx) : val_main_v45 (F := Ideal) i = (0 : EReal) := by
  rw [val_main_v45_apply, val_main_cst_2_apply]; exact Ideal.ofBits_zero_f32

theorem v48_apply (i : S2x128.Idx) : val_main_v48 (F := Ideal) i = Ideal.ofBits .f32 0x44000000#32 := by
  rw [val_main_v48_apply, val_main_cst_3_apply]; rfl

theorem call0_v0_apply (i : S1024x128.Idx) : val_main_call0_v0 (F := Ideal) i = (0 : EReal) := by
  rw [val_main_call0_v0_apply, val_main_call0_cst_apply]; exact Ideal.ofBits_zero_f32

end Cert.RefIndices

end
-- ==== Proof.Consts.lean ====
/-
  The two float constants the division by the node count meets, as the extended reals their words denote, and
  the law that joins them: dividing by 512 is multiplying by 2⁻⁹ on every extended real, the infinities included.
-/
import Idealize.ShloMosaic.PureOps.Ideal

noncomputable section

namespace Cert.Consts

open Idealize.ShloMosaic

/-- The word of `512.0` denotes the real `512`. -/
theorem ofBits_512 : Ideal.ofBits .f32 0x44000000#32 = ((512 : ℝ) : EReal) := by
  simp [Ideal.ofBits, Ideal.ieee, -EReal.coe_mul]; norm_num

/-- The word of `0.001953125` denotes the real `1 / 512`. -/
theorem ofBits_inv512 : Ideal.ofBits .f32 0x3B000000#32 = ((1 / 512 : ℝ) : EReal) := by
  simp [Ideal.ofBits, Ideal.ieee, -EReal.coe_mul]; norm_num

/-- Division by the word of `512.0` is the product with the word of `2⁻⁹`, on every extended real: the divisor is a
    nonzero real, so the quotient is the product with its reciprocal at the infinities too. -/
theorem div512 (x : EReal) :
    Ideal.div x (Ideal.ofBits .f32 0x44000000#32) = x * Ideal.ofBits .f32 0x3B000000#32 := by
  rw [ofBits_512, ofBits_inv512]
  exact Ideal.div_coe (by norm_num) x

end Cert.Consts

end
-- ==== Proof.RefValue.lean ====
/-
  The reference's value on the extended reals, element by element.

  The reference lists the 2·512² edges `e = b·512² + i·512 + j` (batch element `b`, source `i`, target `j`), gathers for
  each the feature row of its source node `b·512 + i`, scales it by the edge weight `adj b i j`, adds the scaled rows
  onto the rows of their target nodes `b·512 + j`, multiplies by the weight matrix, takes the positive part, adds the
  node rows onto the rows of their batch elements and divides by 512. Read at an index: node `(b, j)` collects
  `∑ i, adj b i j · x b i f`; its hidden unit `g` is the positive part of that row times column `g` of the weights;
  output `(b, g)` is the sum of the hidden units of the 512 nodes of `b`, times 2⁻⁹ (dividing by 512 is multiplying
  by 2⁻⁹ on every extended real).
-/
import proofs.«135903_g37177236914935_cont_8to1_b_467_17_alg».proof.Proof.RefScatter
import proofs.«135903_g37177236914935_cont_8to1_b_467_17_alg».proof.Proof.RefIndices
import proofs.«135903_g37177236914935_cont_8to1_b_467_17_alg».proof.Proof.Consts
import proofs.«135903_g37177236914935_cont_8to1_b_467_17_alg».proof.Proof.Spec

noncomputable section

namespace Cert.RefValue

open Idealize.ShloMosaic Idealize.ShloMosaic.ValueIdx Cert.ReferenceIdeal Cert.ReferenceIdeal.Gen Cert.ReferenceIdeal.Read

theorem src_lt (e : Fin 524288) : (e.val / 262144) * 512 + (e.val / 512) % 512 < 1024 := by
  have := e.isLt; omega

/-- The gathered row of edge `e = b·512² + i·512 + j` is the feature row of its source node `(b, i)`. -/
theorem v31_apply (x0 : (⟨S2x512x128, .f32⟩ : BufTy).Contents (Elt Ideal)) (e : Fin 524288) (f : Fin 128) :
    val_main_v31 (F := Ideal) x0 (ix2 e f)
      = x0 (ix3 (⟨e.val / 262144, by have := e.isLt; omega⟩ : Fin 2) (⟨(e.val / 512) % 512, by omega⟩ : Fin 512) f) := by
  have he := e.isLt
  unfold val_main_v31
  rw [RefScatter.gather_apply (val_main_v22 (F := Ideal) x0) (val_main_v30 (F := Ideal))
    (fun e => (e.val / 262144) * 512 + (e.val / 512) % 512) src_lt RefIndices.src_apply e f]
  rw [RefIndices.xflat_apply]
  congr 1
  funext a
  match a with
  | ⟨0, _⟩ => exact Fin.ext (by show ((e.val / 262144) * 512 + (e.val / 512) % 512) / 512 = e.val / 262144; omega)
  | ⟨1, _⟩ => exact Fin.ext (by show ((e.val / 262144) * 512 + (e.val / 512) % 512) % 512 = (e.val / 512) % 512; omega)
  | ⟨2, _⟩ => rfl

/-- The weighted row of edge `e`: the source's feature times the edge weight. -/
theorem v34_apply (x0 : (⟨S2x512x128, .f32⟩ : BufTy).Contents (Elt Ideal))
    (x1 : (⟨S2x512x512, .f32⟩ : BufTy).Contents (Elt Ideal)) (e : Fin 524288) (f : Fin 128) :
    val_main_v34 (F := Ideal) x0 x1 (ix2 e f)
      = x0 (ix3 (⟨e.val / 262144, by have := e.isLt; omega⟩ : Fin 2) (⟨(e.val / 512) % 512, by omega⟩ : Fin 512) f)
        * x1 (ix3 (⟨e.val / 262144, by have := e.isLt; omega⟩ : Fin 2) (⟨(e.val / 512) % 512, by omega⟩ : Fin 512)
            (⟨e.val % 512, by omega⟩ : Fin 512)) := by
  rw [val_main_v34_apply, v31_apply, RefIndices.weight_apply]
  rfl

/-- The edge `(b, i, j)` read back from its flat position. -/
theorem v34_edge (x0 : (⟨S2x512x128, .f32⟩ : BufTy).Contents (Elt Ideal))
    (x1 : (⟨S2x512x512, .f32⟩ : BufTy).Contents (Elt Ideal)) (b : Fin 2) (i j : Fin 512) (f : Fin 128) :
    val_main_v34 (F := Ideal) x0 x1 (ix2 ⟨b.val * 262144 + i.val * 512 + j.val, RefScatter.edge_lt b i j⟩ f)
      = x1 (ix3 b i j) * x0 (ix3 b i f) := by
  have hb := b.isLt
  have hi := i.isLt
  have hj := j.isLt
  rw [v34_apply, mul_comm]
  have h1 : (ix3 (⟨(b.val * 262144 + i.val * 512 + j.val) / 262144, by omega⟩ : Fin 2)
      (⟨((b.val * 262144 + i.val * 512 + j.val) / 512) % 512, by omega⟩ : Fin 512)
      (⟨(b.val * 262144 + i.val * 512 + j.val) % 512, by omega⟩ : Fin 512) : S2x512x512.Idx) = ix3 b i j := by
    funext a
    match a with
    | ⟨0, _⟩ => exact Fin.ext (by show (b.val * 262144 + i.val * 512 + j.val) / 262144 = b.val; omega)
    | ⟨1, _⟩ => exact Fin.ext (by show ((b.val * 262144 + i.val * 512 + j.val) / 512) % 512 = i.val; omega)
    | ⟨2, _⟩ => exact Fin.ext (by show (b.val * 262144 + i.val * 512 + j.val) % 512 = j.val; omega)
  have h0 : (ix3 (⟨(b.val * 262144 + i.val * 512 + j.val) / 262144, by omega⟩ : Fin 2)
      (⟨((b.val * 262144 + i.val * 512 + j.val) / 512) % 512, by omega⟩ : Fin 512) f : S2x512x128.Idx) = ix3 b i f := by
    funext a
    match a with
    | ⟨0, _⟩ => exact Fin.ext (by show (b.val * 262144 + i.val * 512 + j.val) / 262144 = b.val; omega)
    | ⟨1, _⟩ => exact Fin.ext (by show ((b.val * 262144 + i.val * 512 + j.val) / 512) % 512 = i.val; omega)
    | ⟨2, _⟩ => rfl
  exact congrArg₂ (· * ·) (congrArg x1 h1) (congrArg x0 h0)

/-- The aggregated feature of node `(b, j)`: the weighted rows of its 512 incoming edges, summed. -/
theorem v39_apply (x0 : (⟨S2x512x128, .f32⟩ : BufTy).Contents (Elt Ideal))
    (x1 : (⟨S2x512x512, .f32⟩ : BufTy).Contents (Elt Ideal)) (b : Fin 2) (j : Fin 512) (f : Fin 128) :
    val_main_v39 (F := Ideal) x0 x1 (ix2 ⟨b.val * 512 + j.val, RefScatter.node_lt b j⟩ f) = Cert.Spec.agg x0 x1 b j f := by
  unfold val_main_v39
  rw [RefScatter.scatter_nodes_apply' (val_main_v37 (F := Ideal)) (val_main_v38 (F := Ideal)) RefIndices.dst_apply
    (val_main_v34 (F := Ideal) x0 x1) b j f, RefIndices.v37_apply, zero_add]
  unfold Cert.Spec.agg
  exact Finset.sum_congr rfl fun i _ => v34_edge x0 x1 b i j f

/-- The hidden pre-activation of node `(b, j)`: the aggregated row times column `g` of the weights. -/
theorem v40_apply (x0 : (⟨S2x512x128, .f32⟩ : BufTy).Contents (Elt Ideal))
    (x1 : (⟨S2x512x512, .f32⟩ : BufTy).Contents (Elt Ideal)) (x2 : (⟨S128x128, .f32⟩ : BufTy).Contents (Elt Ideal))
    (b : Fin 2) (j : Fin 512) (g : Fin 128) :
    val_main_v40 (F := Ideal) x0 x1 x2 (ix2 ⟨b.val * 512 + j.val, RefScatter.node_lt b j⟩ g)
      = ∑ f : Fin 128, Cert.Spec.agg x0 x1 b j f * x2 (ix2 f g) := by
  rw [val_main_v40_apply]
  refine Finset.sum_congr rfl fun k _ => ?_
  have hl : lidx_main_v40 (ix2 ⟨b.val * 512 + j.val, RefScatter.node_lt b j⟩ g) k
      = ix2 ⟨b.val * 512 + j.val, RefScatter.node_lt b j⟩ k := by
    funext a
    match a with
    | ⟨0, _⟩ => rfl
    | ⟨1, _⟩ => rfl
  have hr : ridx_main_v40 (ix2 ⟨b.val * 512 + j.val, RefScatter.node_lt b j⟩ g) k = ix2 k g := by
    funext a
    match a with
    | ⟨0, _⟩ => rfl
    | ⟨1, _⟩ => rfl
  rw [hl, hr, v39_apply]

/-- The hidden unit of node `(b, j)`: the positive part of the pre-activation. -/
theorem v41_apply (x0 : (⟨S2x512x128, .f32⟩ : BufTy).Contents (Elt Ideal))
    (x1 : (⟨S2x512x512, .f32⟩ : BufTy).Contents (Elt Ideal)) (x2 : (⟨S128x128, .f32⟩ : BufTy).Contents (Elt Ideal))
    (b : Fin 2) (j : Fin 512) (g : Fin 128) :
    val_main_v41 (F := Ideal) x0 x1 x2 (ix2 ⟨b.val * 512 + j.val, RefScatter.node_lt b j⟩ g)
      = Cert.Spec.hidden x0 x1 x2 b j g := by
  rw [val_main_v41_apply, v40_apply, RefIndices.call0_v0_apply]
  rfl

/-- The pooled sum of batch element `b`: the hidden units of its 512 nodes, summed. -/
theorem v47_apply (x0 : (⟨S2x512x128, .f32⟩ : BufTy).Contents (Elt Ideal))
    (x1 : (⟨S2x512x512, .f32⟩ : BufTy).Contents (Elt Ideal)) (x2 : (⟨S128x128, .f32⟩ : BufTy).Contents (Elt Ideal))
    (b : Fin 2) (g : Fin 128) :
    val_main_v47 (F := Ideal) x0 x1 x2 (ix2 b g) = ∑ j : Fin 512, Cert.Spec.hidden x0 x1 x2 b j g := by
  unfold val_main_v47
  rw [RefScatter.scatter_batch_apply (val_main_v45 (F := Ideal)) (val_main_v46 (F := Ideal)) RefIndices.batch_apply
    (val_main_v41 (F := Ideal) x0 x1 x2) b g, RefIndices.v45_apply, zero_add]
  exact Finset.sum_congr rfl fun j _ => v41_apply x0 x1 x2 b j g

/-- THE REFERENCE'S VALUE: the pooled output of the specification. -/
theorem ref_eq (x0 : (⟨S2x512x128, .f32⟩ : BufTy).Contents (Elt Ideal))
    (x1 : (⟨S2x512x512, .f32⟩ : BufTy).Contents (Elt Ideal)) (x2 : (⟨S128x128, .f32⟩ : BufTy).Contents (Elt Ideal)) :
    val_main_v49 (F := Ideal) x0 x1 x2 = Cert.Spec.pooled x0 x1 x2 := by
  funext o
  obtain ⟨b, g, rfl⟩ : ∃ (b : Fin 2) (g : Fin 128), o = ix2 b g := ⟨o 0, o 1, eq_ix2 o⟩
  rw [val_main_v49_apply, v47_apply, RefIndices.v48_apply]
  show Ideal.div _ _ = _
  rw [Cert.Consts.div512]
  rfl

end Cert.RefValue

end
-- ==== Proof.lean ====
/-
  The claim: the word-level kernel, its idealization and the idealized reference each run to completion with their
  argument arrays unchanged, and at the ideal instance the kernel and the reference end with equal results.

  The kernel is one pallas call over a grid of two points, one per batch element. At point `b` it computes, for the
  batch element's adjacency `A` (512 × 512), features `X` (512 × 128) and the weight matrix `W` (128 × 128), the column
  sums of the positive part of `(Aᵀ X) W`, times 2⁻⁹, and stores them as row `b` of the 2 × 128 output buffer, which is
  written back once, after the last point. The reference builds the edge list of the dense adjacency (every pair
  `(i, j)` of a batch element is an edge from node `i` to node `j` with weight `A i j`), gathers the source rows,
  scales them by the edge weights, scatter-adds them at the target nodes — which is `Aᵀ X` —, applies `W` and the
  positive part, scatter-adds the nodes' rows by batch element and divides by 512. On the extended reals both are the
  function `Cert.Spec.pooled` of the three argument arrays: sums may be taken in any order, the product is commutative,
  and dividing by 512 is multiplying by 2⁻⁹ on every extended real; no finiteness of the inputs is needed.

  Because each point overwrites only its own row of the output buffer, what the buffer holds between the points depends
  on what it held before the launch; the proof data therefore constrain what the body leaves there by a relation (the
  row of the point replaced, the rest kept) instead of naming it, and after the last point both rows have been replaced,
  so the array written back is determined.
-/
import proofs.«135903_g37177236914935_cont_8to1_b_467_17_alg».proof.Defs
import proofs.«135903_g37177236914935_cont_8to1_b_467_17_alg».proof.Proof.Gen.Kernel
import proofs.«135903_g37177236914935_cont_8to1_b_467_17_alg».proof.Proof.Gen.KernelIdeal
import proofs.«135903_g37177236914935_cont_8to1_b_467_17_alg».proof.Proof.Gen.ReferenceIdeal
import proofs.«135903_g37177236914935_cont_8to1_b_467_17_alg».proof.Proof.Gen.Pre_finite_inputs
import proofs.«135903_g37177236914935_cont_8to1_b_467_17_alg».proof.Proof.Gen.ReferenceIdeal.Run
import proofs.«135903_g37177236914935_cont_8to1_b_467_17_alg».proof.Proof.Gen.ReferenceIdeal.Read
import proofs.«135903_g37177236914935_cont_8to1_b_467_17_alg».proof.Proof.KernelBody
import proofs.«135903_g37177236914935_cont_8to1_b_467_17_alg».proof.Proof.KernelIdealBody
import proofs.«135903_g37177236914935_cont_8to1_b_467_17_alg».proof.Proof.KernelValue
import proofs.«135903_g37177236914935_cont_8to1_b_467_17_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel [Cert.Kernel.Facts] [Cert.Pre_finite_inputs.Facts] : Cert.frame_Kernel :=
  fun m ρ _ => Cert.Kernel.Body.frame (F := Bits) m ρ

/-- So does its idealization. -/
theorem frame_kernelIdeal [Cert.KernelIdeal.Facts] [Cert.Pre_finite_inputs.Facts] : Cert.frame_KernelIdeal :=
  fun m ρ _ => Cert.KernelIdeal.Body.frame (F := Ideal) m ρ

/-- The reference's frame is its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- At the ideal instance the kernel's result array and the reference's are both the specification's pooled output of
    arguments that agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, Cert.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
